-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x512 : Shape := ⟨2, ![512, 512]⟩
abbrev S512x256 : Shape := ⟨2, ![512, 256]⟩
abbrev S512 : Shape := ⟨1, ![512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_arg6 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S256x512 .f32) (main_arg1 : FVec F S512x512 .f32) (main_arg2 : FVec F S512x256 .f32) (main_arg3 : FVec F S512x256 .f32) (main_arg4 : FVec F S512 .f32) (main_arg5 : FVec F S512 .f32) (main_arg6 : FVec F S512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S256x512 : Shape := ⟨2, ![256, 512]⟩
abbrev S512x512 : Shape := ⟨2, ![512, 512]⟩
abbrev S512x256 : Shape := ⟨2, ![512, 256]⟩
abbrev S512 : Shape := ⟨1, ![512]⟩
abbrev S1x512 : Shape := ⟨2, ![1, 512]⟩
abbrev S512x1 : Shape := ⟨2, ![512, 1]⟩
abbrev S128x128 : Shape := ⟨2, ![128, 128]⟩
abbrev S256x128 : Shape := ⟨2, ![256, 128]⟩
abbrev S128x256 : Shape := ⟨2, ![128, 256]⟩
abbrev S128x16 : Shape := ⟨2, ![128, 16]⟩
abbrev S16x256 : Shape := ⟨2, ![16, 256]⟩
abbrev S128x16x1 : Shape := ⟨3, ![128, 16, 1]⟩
abbrev S1x16x256 : Shape := ⟨3, ![1, 16, 256]⟩
abbrev S128x16x256 : Shape := ⟨3, ![128, 16, 256]⟩

abbrev nBuf : Space → Nat
  | .hbm => 12
  | .vmem => 18
  | .smem => 0
  | _ => 0

abbrev bufTy : (tb : Table) → Fin (tcTables nBuf tb) → BufTy
  | .hbm, ⟨0, _⟩ => ⟨S256x512, .f32⟩
  | .hbm, ⟨1, _⟩ => ⟨S512x512, .f32⟩
  | .hbm, ⟨2, _⟩ => ⟨S512x256, .f32⟩
  | .hbm, ⟨3, _⟩ => ⟨S512x256, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S512x512, .f32⟩
  | .hbm, ⟨11, _⟩ => ⟨S256x512, .f32⟩
  | .local _ .vmem, ⟨0, _⟩ => ⟨S512x256, .f32⟩
  | .local _ .vmem, ⟨1, _⟩ => ⟨S512x256, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S128x128, .f32⟩
  | .local _ .vmem, ⟨8, _⟩ => ⟨S128x128, .f32⟩
  | .local _ .vmem, ⟨9, _⟩ => ⟨S256x128, .f32⟩
  | .local _ .vmem, ⟨10, _⟩ => ⟨S256x128, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨3, ![2, 2, 4], ![false, false, false]⟩

def k1_cond2 (i : grid1.Coords) : BitVec 1 :=
  let arg2 : BitVec 32 := BitVec.ofNat 32 (i 2).val
  let c3_i32 : BitVec 32 := 3#32
  let v101 : BitVec 1 := Scalar.cmpi .eq arg2 c3_i32
  let v102 : BitVec 32 := Scalar.extui v101
  let c0_i32_27 : BitVec 32 := 0#32
  let v103 : BitVec 1 := Scalar.cmpi .ne v102 c0_i32_27
  v103

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S512_S1x512 : S512.ShapeCasts S1x512
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  transposes_S512x256_p1_0_S256x512 : S512x256.Transposes [1, 0] S256x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  transposes_S512x512_p1_0_S512x512 : S512x512.Transposes [1, 0] S512x512
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x128_S128x128_0_0 : ∀ a, (![0, 0] : Fin 2 → Nat) a + S128x128.size a ≤ S128x128.size a
  h_S128x128 : 0 < S128x128.numel
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  slices_S128x128_o0_0_S128x16 : S128x128.Slices ![0, 0] S128x16
  slices_S128x256_o0_0_S16x256 : S128x256.Slices ![0, 0] S16x256
  shapeCasts_S128x16_S128x16x1 : S128x16.ShapeCasts S128x16x1
  shapeCasts_S16x256_S1x16x256 : S16x256.ShapeCasts S1x16x256
  broadcasts_S128x16x1_S128x16x256 : S128x16x1.Broadcasts S128x16x256
  broadcasts_S1x16x256_S128x16x256 : S1x16x256.Broadcasts S128x16x256
  reduces_S128x16x256_S128x256 : S128x16x256.Reduces [1] S128x256
  slices_S128x128_o0_16_S128x16 : S128x128.Slices ![0, 16] S128x16
  slices_S128x256_o16_0_S16x256 : S128x256.Slices ![16, 0] S16x256
  slices_S128x128_o0_32_S128x16 : S128x128.Slices ![0, 32] S128x16
  slices_S128x256_o32_0_S16x256 : S128x256.Slices ![32, 0] S16x256
  slices_S128x128_o0_48_S128x16 : S128x128.Slices ![0, 48] S128x16
  slices_S128x256_o48_0_S16x256 : S128x256.Slices ![48, 0] S16x256
  slices_S128x128_o0_64_S128x16 : S128x128.Slices ![0, 64] S128x16
  slices_S128x256_o64_0_S16x256 : S128x256.Slices ![64, 0] S16x256
  slices_S128x128_o0_80_S128x16 : S128x128.Slices ![0, 80] S128x16
  slices_S128x256_o80_0_S16x256 : S128x256.Slices ![80, 0] S16x256
  slices_S128x128_o0_96_S128x16 : S128x128.Slices ![0, 96] S128x16
  slices_S128x256_o96_0_S16x256 : S128x256.Slices ![96, 0] S16x256
  slices_S128x128_o0_112_S128x16 : S128x128.Slices ![0, 112] S128x16
  slices_S128x256_o112_0_S16x256 : S128x256.Slices ![112, 0] S16x256
  dot_S512x256_S256x512_S512x512_1_0_0_1_n_n_wf : DotDims.WF S512x256 S256x512 S512x512 [1] [0] [0] [1] [] []
  dot_S128x128_S256x128_S128x256_1_1_0_0_n_n_wf : DotDims.WF S128x128 S256x128 S128x256 [1] [1] [0] [0] [] []
  dot_S128x128_S128x256_S128x256_1_0_0_1_n_n_wf : DotDims.WF S128x128 S128x256 S128x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S256x512.size a
  hwx1_0 : ∀ i : grid1.Coords, EltTy.bits .f32 = 32 ∨ (Rect.block (s := S256x512) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S512x512.size a
  hwx1_1 : ∀ i : grid1.Coords, EltTy.bits .f32 = 32 ∨ (Rect.block (s := S512x512) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S512x512.size a
  hwx1_2 : ∀ i : grid1.Coords, EltTy.bits .f32 = 32 ∨ (Rect.block (s := S512x512) S128x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S256x512.size a
  hwx1_3 : ∀ i : grid1.Coords, EltTy.bits .f32 = 32 ∨ (Rect.block (s := S256x512) S128x256.size (cc1_transform_3 i) (hinb1_3 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S128x128_S256x128_S128x256_1_1_0_0_n_n : DotDims S128x128 S256x128 S128x256 where
  lhsContracting := [1]
  rhsContracting := [1]
  lhsNonContracting := [0]
  rhsNonContracting := [0]
  lhsBatch := []
  rhsBatch := []
  wf := dot_S128x128_S256x128_S128x256_1_1_0_0_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf

abbrev win0_0 : Pipeline.Window sig grid0 :=
  Pipeline.Window.ofSpec (Memref.whole main_arg2) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x512.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S256x512 : Shape := ⟨2, ![256, 512]⟩
abbrev S512x512 : Shape := ⟨2, ![512, 512]⟩
abbrev S512x256 : Shape := ⟨2, ![512, 256]⟩
abbrev S512 : Shape := ⟨1, ![512]⟩
abbrev S1x512 : Shape := ⟨2, ![1, 512]⟩
abbrev S_ : Shape := ⟨0, ![]⟩
abbrev S512x1 : Shape := ⟨2, ![512, 1]⟩
abbrev S256x512x1 : Shape := ⟨3, ![256, 512, 1]⟩
abbrev S1x512x512 : Shape := ⟨3, ![1, 512, 512]⟩
abbrev S256x512x512 : Shape := ⟨3, ![256, 512, 512]⟩

abbrev nBuf : Space → Nat
  | .hbm => 72
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x512, .f32⟩
  | .hbm, ⟨2, _⟩ => ⟨S512x256, .f32⟩
  | .hbm, ⟨3, _⟩ => ⟨S512x256, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S256x512, .f32⟩
  | .hbm, ⟨8, _⟩ => ⟨S512x512, .f32⟩
  | .hbm, ⟨9, _⟩ => ⟨S1x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512, .f32⟩
  | .hbm, ⟨23, _⟩ => ⟨S512x1, .f32⟩
  | .hbm, ⟨24, _⟩ => ⟨S_, .f32⟩
  | .hbm, ⟨25, _⟩ => ⟨S512x1, .f32⟩
  | .hbm, ⟨26, _⟩ => ⟨S512x1, .f32⟩
  | .hbm, ⟨27, _⟩ => ⟨S512x512, .f32⟩
  | .hbm, ⟨28, _⟩ => ⟨S512x512, .f32⟩
  | .hbm, ⟨29, _⟩ => ⟨S_, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S512x512, .f32⟩
  | .hbm, ⟨34, _⟩ => ⟨S512x512, .f32⟩
  | .hbm, ⟨35, _⟩ => ⟨S1x512, .f32⟩
  | .hbm, ⟨36, _⟩ => ⟨S512x512, .f32⟩
  | .hbm, ⟨37, _⟩ => ⟨S512x512, .f32⟩
  | .hbm, ⟨38, _⟩ => ⟨S1x512, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S256x512x1, .f32⟩
  | .hbm, ⟨50, _⟩ => ⟨S512x512, .f32⟩
  | .hbm, ⟨51, _⟩ => ⟨S1x512x512, .f32⟩
  | .hbm, ⟨52, _⟩ => ⟨S256x512x512, .f32⟩
  | .hbm, ⟨53, _⟩ => ⟨S256x512x512, .f32⟩
  | .hbm, ⟨54, _⟩ => ⟨S256x512x512, .f32⟩
  | .hbm, ⟨55, _⟩ => ⟨S256x512x512, .f32⟩
  | .hbm, ⟨56, _⟩ => ⟨S1x512x512, .f32⟩
  | .hbm, ⟨57, _⟩ => ⟨S256x512x512, .f32⟩
  | .hbm, ⟨58, _⟩ => ⟨S256x512x512, .f32⟩
  | .hbm, ⟨59, _⟩ => ⟨S256x512x512, .f32⟩
  | .hbm, ⟨60, _⟩ => ⟨S256x512x512, .f32⟩
  | .hbm, ⟨61, _⟩ => ⟨S_, .f32⟩
  | .hbm, ⟨62, _⟩ => ⟨S256x512, .f32⟩
  | .hbm, ⟨63, _⟩ => ⟨S_, .f32⟩
  | .hbm, ⟨64, _⟩ => ⟨S256x512, .f32⟩
  | .hbm, ⟨65, _⟩ => ⟨S256x512, .f32⟩
  | .hbm, ⟨66, _⟩ => ⟨S512x512, .f32⟩
  | .hbm, ⟨67, _⟩ => ⟨S256x512, .f32⟩
  | .hbm, ⟨68, _⟩ => ⟨S_, .f32⟩
  | .hbm, ⟨69, _⟩ => ⟨S256x512, .f32⟩
  | .hbm, ⟨70, _⟩ => ⟨S256x512, .f32⟩
  | .hbm, ⟨71, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  bcast_S256x512_S256x512x1_0_1 : S256x512.BroadcastsInDim S256x512x1 (![0, 1] : Fin 2 → Fin S256x512x1.rank)
  transposes_S512x512_S512x512_1_0 : S512x512.Transposes [1, 0] S512x512
  bcast_S512x512_S1x512x512_1_2 : S512x512.BroadcastsInDim S1x512x512 (![1, 2] : Fin 2 → Fin S1x512x512.rank)
  bcast_S256x512x1_S256x512x512_0_1_2 : S256x512x1.BroadcastsInDim S256x512x512 (![0, 1, 2] : Fin 3 → Fin S256x512x512.rank)
  bcast_S1x512x512_S256x512x512_0_1_2 : S1x512x512.BroadcastsInDim S256x512x512 (![0, 1, 2] : Fin 3 → Fin S256x512x512.rank)
  reducesTo_S256x512x512_S256x512_d1 : S256x512x512.ReducesTo [1] S256x512
  bcast_S_S256x512 : S_.BroadcastsInDim S256x512 (![] : Fin 0 → Fin S256x512.rank)
  dot_S512x256_S256x512_S512x512_1_0_0_1_n_n_wf : DotDims.WF S512x256 S256x512 S512x512 [1] [0] [0] [1] [] []
  dot_S256x512_S512x512_S256x512_1_0_0_1_n_n_wf : DotDims.WF S256x512 S512x512 S256x512 [1] [0] [0] [1] [] []

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

class Facts : Prop extends Facts₀ where

variable [Facts]
-- ==== Proof.K.GateRegion.lean ====
/-
  The first kernel's region, at any float instance: what its one grid point leaves in the staging buffer of the
  gate table, and the body obligation of its pipeline.

  The pipeline has one grid point and seven windows, each a whole array: the predicate embeddings [512,256], the
  attention weights [512,256], the attention bias, the layer-norm scale and the layer-norm shift as rows [1,512],
  the mixing weights [512,512], and the result, the gate table [512,512].  The body loads each of the six inputs
  through the whole-buffer rectangle at offset zero, computes one pure term of the six loads, and stores it through
  the whole-buffer rectangle of the result; the one load of the result buffer made before the store is not used.
  So after the body every input buffer still holds its block, and the result buffer holds the payload of the six
  input blocks (`gateOut`).  Everything here is stated at a parameter `V`, the buffer contents when the region is
  entered, and never opens the payload.
-/
import proofs.«164464_j21912923144501_2_alg».proof.Proof.Gen.Kernel.Launch
import proofs.«164464_j21912923144501_2_alg».proof.Proof.Gen.Kernel.Skeleton
import proofs.«164464_j21912923144501_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 512 × 512: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof
    data whose array is `V`'s (`hA`) and whose body leaves the block in place (`hafter`): the window is uncut and
    never idle, and where it is not fetched its index has not moved.  One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the whole-buffer rectangle at offset zero, one per buffer shape -/

abbrev r0_0 : Rect S512x256 := Rect.unit (s := S512x256) ![0, 0] S512x256.size inb_S512x256_S512x256_0_0
abbrev r0_1 : Rect S1x512 := Rect.unit (s := S1x512) ![0, 0] S1x512.size inb_S1x512_S1x512_0_0
abbrev r0_2 : Rect S512x512 := Rect.unit (s := S512x512) ![0, 0] S512x512.size inb_S512x512_S512x512_0_0

/-! ## What the body leaves in the result window's buffer -/

/-- The result window's staging buffer after the body, from the six input windows' blocks: its one store as a
    piece, the payload the body's arithmetic over the six loads. -/
def gateOut (x0 x1 : Vec F S512x256 .f32) (x2 x3 x4 : Vec F S1x512 .f32) (x5 : Vec F S512x512 .f32) : Vec F S512x512 .f32 :=
  View.canon [⟨r0_2, k0_pay1 (View.ld x0 r0_0) (View.ld x1 r0_0) (View.ld x2 r0_1) (View.ld x3 r0_1) (View.ld x4 r0_1) (View.ld x5 r0_2)⟩]

/-- The one store is through the whole buffer, so it covers it. -/
theorem cover0_6 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-! ## The body's triple -/

set_option maxHeartbeats 1000000 in
/-- The kernel body on whole staging memrefs, the inputs' at read contents `xW` and the result's at anything, runs
    to the continuation holding the inputs' as they were and the result's at `gateOut` of the inputs'. -/
theorem sound_kernel0 (c : Dev nD) (E : Set ℕ) (i : grid0.Coords) (arg1 : Memref sig .tc .vmem S512x256 .f32) (harg1 : arg1.IsWhole) (arg2 : Memref sig .tc .vmem S512x256 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole)
    (x0 : Vec F S512x256 .f32) (x1 : Vec F S512x256 .f32) (x2 : Vec F S1x512 .f32) (x3 : Vec F S1x512 .f32) (x4 : Vec F S1x512 .f32) (x5 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (gateOut x0 x1 x2 x3 x4 x5)) -∗ K ⟨⟩))
      ⊢ wp frame (wpE (defs₀ (F := F)) Variants.none c none) E (cc0__m_kernel i arg1 harg1 arg2 harg2 arg3 harg3 arg4 harg4 arg5 harg5 arg6 harg6 arg7 harg7) K := by
  simp only [cc0__m_kernel_eq_skeleton]; unfold cc0__m_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of the pipeline on core `c`: the arrays as the region finds them (`V`); after the body at point
    `t` each input's buffer at its block and the result's at `gateOut` of the six input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => gateOut (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents (the definition projected, by `dsimp`). -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = gateOut (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.AccShared.lean ====
/-
  The accumulating kernel (the second region): what its three cases share.

  The grid is 2 × 2 × 4: a point t is the tile (t / 8, (t / 4) mod 2) of the result at the input block t mod 4.  The body branches twice on
  the input block's number: at block 0 it first resets the three accumulators, at block 3 it finally stores the tile.  Here: a window's
  block at a point as the region finds it; that an input window's staging buffer holds that block at every point; the two conditions in
  closed form; that the result window is idle (neither stored nor written back) except at block 3; the names of the staging and scratch
  memrefs; and the region's invariant written out over the core's scoped buffers.
-/
import proofs.«164464_j21912923144501_2_alg».proof.Proof.Gen.Kernel.Launch
import proofs.«164464_j21912923144501_2_alg».proof.Proof.Gen.Kernel.Skeleton
import proofs.«164464_j21912923144501_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions, decided over the grid -/

/-- "This is the first input block of the tile": the body's first branch. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last input block of the tile": the body's second branch. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last block the result window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last block it is live. -/
theorem liveAt1_3 : ∀ t : Fin cfg1.N, cond1_1 (grid1.coords t) → cfg1.idle 3 (grid1.coords t) = false := by decide +kernel

/-! ## The memrefs -/

/-- Each window's current staging memref at point `t`, as the pipeline passes it, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256 .f32 := win1_3.stage (cfg1.slots t 3)
abbrev hs1_3 (t : Fin cfg1.N) : (ms1_3 t).IsWhole := hstage1_3 ((cfg1.slots t 3).cast nbuf1_3)
/-- The three accumulators: whole scoped buffers of the kernel's own (product, sum, maximum). -/
abbrev scM1_0 : Memref sig .tc .vmem S128x256 .f32 := Memref.whole cc1_scratch0
abbrev scM1_1 : Memref sig .tc .vmem S128x256 .f32 := Memref.whole cc1_scratch1
abbrev scM1_2 : Memref sig .tc .vmem S128x256 .f32 := Memref.whole cc1_scratch2
/-- Views through which a buffer's contents after a list of stores are stated (the choice of buffer does not matter). -/
abbrev VO1_3 : View sig .tc .vmem S128x256 .f32 := (Memref.whole cc1_stg3_0 : Memref sig .tc .vmem S128x256 .f32).view
abbrev VS1_0 : View sig .tc .vmem S128x256 .f32 := scM1_0.view
abbrev VS1_1 : View sig .tc .vmem S128x256 .f32 := scM1_1.view
abbrev VS1_2 : View sig .tc .vmem S128x256 .f32 := scM1_2.view

/-! ## The invariant over the scoped buffers -/

/-- A scoped buffer whole at some contents. -/
abbrev held (c : Dev nD) (r : Ref sig .tc) : sProp 𝕄 :=
  iprop(∃ f : Buf (Elt F) ((c : Thread nD τ).loc r), ((c : Thread nD τ).loc r) ↦{fullShare} f)

/-- The other kernel's staging buffers, untouched by this region. -/
abbrev others (c : Dev nD) : sProp 𝕄 := iprop(held c cc0_stg0_0 ∗ held c cc0_stg1_0 ∗ held c cc0_stg2_0 ∗ held c cc0_stg3_0 ∗ held c cc0_stg4_0 ∗ held c cc0_stg5_0 ∗ held c cc0_stg6_0)

/-- What the region's entry hands the body: the other kernel's staging buffers and the three accumulators at anything,
    and the generator register at some state. -/
theorem PhiA1_eq (c : Dev nD) :
    (Pipeline.ΦA spec1 c : sProp 𝕄)
      = iprop(iprop(held c cc0_stg0_0 ∗ held c cc0_stg1_0 ∗ held c cc0_stg2_0 ∗ held c cc0_stg3_0 ∗ held c cc0_stg4_0 ∗ held c cc0_stg5_0 ∗ held c cc0_stg6_0 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.AccRunA.lean ====
/-
  The accumulating kernel's body at the first input block of a tile: the three accumulators are reset (whatever they held) and then updated; the result window is left as it was.
  Stated as a triple on whole memrefs: from the three input blocks (and the buffers named above) the body runs to the end, leaving the
  inputs as they were and each buffer it stores into with its stores applied, last store first; what those stores are is read off the run.
-/
import proofs.«164464_j21912923144501_2_alg».proof.Proof.K.AccShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i)
    (x0 : Vec F S128x128 .f32) (x1 : Vec F S256x128 .f32) (x2 : Vec F S128x256 .f32) :
    Σ' (LS0 : List (View.Piece (Elt F) S128x256 .f32)) (LS1 : List (View.Piece (Elt F) S128x256 .f32)), { LS2 : List (View.Piece (Elt F) S128x256 .f32) //
      ∀ (xi3 : Vec F S128x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, ?_, fun xi3 E K => ?run⟩
  case run =>
    simp only [cc1__main_kernel_eq_skeleton]; unfold cc1__main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.AccRunB.lean ====
/-
  The accumulating kernel's body at a middle input block: the three accumulators, at what the block before left, are updated; the result window is left as it was.
  Stated as a triple on whole memrefs: from the three input blocks (and the buffers named above) the body runs to the end, leaving the
  inputs as they were and each buffer it stores into with its stores applied, last store first; what those stores are is read off the run.
-/
import proofs.«164464_j21912923144501_2_alg».proof.Proof.K.AccRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i)
    (x0 : Vec F S128x128 .f32) (x1 : Vec F S256x128 .f32) (x2 : Vec F S128x256 .f32) (xs0 xs1 xs2 : Vec F S128x256 .f32) :
    Σ' (LS0 : List (View.Piece (Elt F) S128x256 .f32)) (LS1 : List (View.Piece (Elt F) S128x256 .f32)), { LS2 : List (View.Piece (Elt F) S128x256 .f32) //
      ∀ (xi3 : Vec F S128x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, ?_, fun xi3 E K => ?run⟩
  case run =>
    simp only [cc1__main_kernel_eq_skeleton]; unfold cc1__main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.AccRunC.lean ====
/-
  The accumulating kernel's body at the last input block of a tile: the three accumulators, at what the block before left, are updated and the tile is stored to the result window.
  Stated as a triple on whole memrefs: from the three input blocks (and the buffers named above) the body runs to the end, leaving the
  inputs as they were and each buffer it stores into with its stores applied, last store first; what those stores are is read off the run.
-/
import proofs.«164464_j21912923144501_2_alg».proof.Proof.K.AccRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i)
    (x0 : Vec F S128x128 .f32) (x1 : Vec F S256x128 .f32) (x2 : Vec F S128x256 .f32) (xs0 xs1 xs2 : Vec F S128x256 .f32) :
    Σ' (L3 : List (View.Piece (Elt F) S128x256 .f32)) (LS0 : List (View.Piece (Elt F) S128x256 .f32)) (LS1 : List (View.Piece (Elt F) S128x256 .f32)), { LS2 : List (View.Piece (Elt F) S128x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, ?_, ?_, fun E K => ?run⟩
  case run =>
    simp only [cc1__main_kernel_eq_skeleton]; unfold cc1__main_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.AccRegion.lean ====
/-
  The accumulating kernel (the second region): what its buffers hold point by point, and its body obligation.

  A tile's three accumulators live in scratch buffers the region keeps from one grid point to the next.  `outsAt1` says, by recursion on the
  point's number n, what the result window's staging buffer and the three accumulators hold after the body at point n: at a tile's first
  input block (n ≡ 0 mod 4) what the reset-and-update leaves; at a middle block the update of what point n − 1 left; at the last block
  (n ≡ 3) that update and the stored tile.  The region's invariant `PhiS` hands each point the accumulators at what the point before left;
  the body obligation is then, case by case, that case's run.
-/
import proofs.«164464_j21912923144501_2_alg».proof.Proof.K.AccRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## What each case leaves -/

/-- Case A's stores into accumulator 0 tile it, so they cover it. -/
theorem scover1_A_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) (y : S128x256.Idx) :
    ∃ pc ∈ (kernelRun1_A c i arg3 harg3 arg4 harg4 arg5 harg5 arg6 harg6 arg7 harg7 arg8 harg8 arg9 harg9 hc0 hc1 x0 x1 x2).1, y ∈ pc.1.set :=
  View.cover_of_tiledL (kernelRun1_A c i arg3 harg3 arg4 harg4 arg5 harg5 arg6 harg6 arg7 harg7 arg8 harg8 arg9 harg9 hc0 hc1 x0 x1 x2).1 S128x256.size (by sl_kernel_rfl) y
/-- What case A leaves in accumulator 0: its stores read back. -/
def sout1_A_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) : Vec F S128x256 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).1)
/-- Case A's stores into accumulator 1 tile it, so they cover it. -/
theorem scover1_A_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) (y : S128x256.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S128x256.size (by sl_kernel_rfl) y
/-- What case A leaves in accumulator 1: its stores read back. -/
def sout1_A_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) : Vec F S128x256 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.1)
/-- Case A's stores into accumulator 2 tile it, so they cover it. -/
theorem scover1_A_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) (y : S128x256.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S128x256.size (by sl_kernel_rfl) y
/-- What case A leaves in accumulator 2: its stores read back. -/
def sout1_A_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) : Vec F S128x256 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.1)

/-- Case B's stores into accumulator 0 tile it, so they cover it. -/
theorem scover1_B_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) (y : S128x256.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S128x256.size (by sl_kernel_rfl) y
/-- What case B leaves in accumulator 0: its stores read back. -/
def sout1_B_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) : Vec F S128x256 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).1)
/-- Case B's stores into accumulator 1 tile it, so they cover it. -/
theorem scover1_B_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) (y : S128x256.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S128x256.size (by sl_kernel_rfl) y
/-- What case B leaves in accumulator 1: its stores read back. -/
def sout1_B_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) : Vec F S128x256 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.1)
/-- Case B's stores into accumulator 2 tile it, so they cover it. -/
theorem scover1_B_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) (y : S128x256.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S128x256.size (by sl_kernel_rfl) y
/-- What case B leaves in accumulator 2: its stores read back. -/
def sout1_B_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) : Vec F S128x256 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.1)

/-- Case C's stores into accumulator 0 tile it, so they cover it. -/
theorem scover1_C_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) (y : S128x256.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S128x256.size (by sl_kernel_rfl) y
/-- What case C leaves in accumulator 0: its stores read back. -/
def sout1_C_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) : Vec F S128x256 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)
/-- Case C's stores into accumulator 1 tile it, so they cover it. -/
theorem scover1_C_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) (y : S128x256.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S128x256.size (by sl_kernel_rfl) y
/-- What case C leaves in accumulator 1: its stores read back. -/
def sout1_C_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) : Vec F S128x256 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)
/-- Case C's stores into accumulator 2 tile it, so they cover it. -/
theorem scover1_C_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) (y : S128x256.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S128x256.size (by sl_kernel_rfl) y
/-- What case C leaves in accumulator 2: its stores read back. -/
def sout1_C_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) : Vec F S128x256 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)
/-- The last block's store into the result window covers it. -/
theorem cover1_C_3 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) (y : S128x256.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S128x256.size (by sl_kernel_rfl) y
/-- What the last block leaves in the result window: the tile. -/
def out1_C_3 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) : Vec F S128x256 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-! ## Point by point -/

/-- The result window's staging buffer and the three accumulators (product, sum, maximum) after a point. -/
abbrev St (F : FTy → Type) [FloatOps F] : Type :=
  Vec F S128x256 .f32 × Vec F S128x256 .f32 × Vec F S128x256 .f32 × Vec F S128x256 .f32

/-- THE ACCUMULATION: after the body at position `n`, by the case the closed forms select there; a case that reads the accumulators
    takes what position `n - 1` left.  (Away from a tile's last block the result window is neither stored nor written back: its
    component there is a placeholder nothing consults.) -/
def outsAt1 (c : Dev nD) : (n : ℕ) → n < cfg1.N → St F
  | 0, hn => (VO1_3.read (Elt F) VO1_3.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (VO1_3.read (Elt F) VO1_3.junk, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (VO1_3.read (Elt F) VO1_3.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a tile's first block. -/
theorem outsAt1_A (c : Dev nD) (t : Fin cfg1.N) (h0 : t.val % 4 = 0) (h1 : ¬t.val % 4 = 3) :
    outsAt1 V c t.val t.isLt = (VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle block, over what the point before left. -/
theorem outsAt1_B (c : Dev nD) (t : Fin cfg1.N) (h0 : ¬t.val % 4 = 0) (h1 : ¬t.val % 4 = 3) :
    outsAt1 V c t.val t.isLt = (VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a tile's last block, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The other kernel's staging buffers, each whole at some contents: they ride through this region untouched. -/
def gateStaging (c : Dev nD) : sProp 𝕄 := others (F := F) c

/-- What the region's entry hands the body, sorted: the three accumulators at anything, the other kernel's staging buffers, the
    generator register. -/
theorem PhiA1_split (c : Dev nD) :
    (Pipeline.ΦA spec1 c : sProp 𝕄) ⊢ iprop(iprop((∃ d, owns (c : Thread nD τ) scM1_0 fullShare d) ∗ (∃ d, owns (c : Thread nD τ) scM1_1 fullShare d) ∗ (∃ d, owns (c : Thread nD τ) scM1_2 fullShare d)) ∗ gateStaging (F := F) c ∗ (∃ r, prngReg c r)) := by
  rw [PhiA1_eq]; unfold gateStaging
  iintro ⟨⟨B0, B1, B2, B3, B4, B5, B6, HS0, HS1, HS2⟩, Hg⟩
  isplitl [HS0 HS1 HS2]
  · isplitl [HS0]; · iexact HS0
    isplitl [HS1]; · iexact HS1
    iexact HS2
  isplitl [B0 B1 B2 B3 B4 B5 B6]
  · isplitl [B0]; · iexact B0
    isplitl [B1]; · iexact B1
    isplitl [B2]; · iexact B2
    isplitl [B3]; · iexact B3
    isplitl [B4]; · iexact B4
    isplitl [B5]; · iexact B5
    iexact B6
  iexact Hg

/-- And back. -/
theorem PhiA1_join (c : Dev nD) :
    (iprop(iprop((∃ d, owns (c : Thread nD τ) scM1_0 fullShare d) ∗ (∃ d, owns (c : Thread nD τ) scM1_1 fullShare d) ∗ (∃ d, owns (c : Thread nD τ) scM1_2 fullShare d)) ∗ gateStaging (F := F) c ∗ (∃ r, prngReg c r)) : sProp 𝕄) ⊢ Pipeline.ΦA spec1 c := by
  rw [PhiA1_eq]; unfold gateStaging
  iintro ⟨⟨HS0, HS1, HS2⟩, ⟨B0, B1, B2, B3, B4, B5, B6⟩, Hg⟩
  isplitl [B0 B1 B2 B3 B4 B5 B6 HS0 HS1 HS2]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [HS0]; · iexact HS0
    isplitl [HS1]; · iexact HS1
    iexact HS2
  iexact Hg

/-- The region invariant before position `n`: before the first point what the entry hands over (every scratch at anything);
    afterwards the three accumulators at what the point before left, the other kernel's staging buffers, the generator register. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ gateStaging (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ gateStaging (F := F) c ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ gateStaging (F := F) c ∗ (∃ r, prngReg c r)) := by
  cases n with
  | zero => exact absurd rfl hz
  | succ n => rfl

/-! ## The proof data -/

/-- The proof data of the second pipeline on core `c`: the arrays as the region finds them (`V`); after the body at point `t` each
    input's buffer at its block and the result window's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]; try rfl
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]; try rfl
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]; try rfl

set_option maxHeartbeats 8000000 in
/-- The body at any point: the inputs' memrefs hold their blocks; the closed forms say which case the point is in; the invariant hands
    the body the accumulators at what the point before left (at anything before the first point) and takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 16 := lt_of_lt_of_eq t.isLt (show cfg1.N = 16 from N_1)
  by_cases h0 : t.val % 4 = 0
  · by_cases h1 : t.val % 4 = 3
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_split c) $$ HΦ
        icases HΦ' with ⟨⟨HS0, HS1, HS2⟩, Hrest, Hg⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest Hg]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HS1, HS2⟩, Hrest, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hrest Hg]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      by_cases hz : t.val = 0
      · exfalso; omega
      · rw [PhiS_castSucc V c t, PhiS_pos V c _ _ hz]
        iintro ⟨⟨⟨HS0, HS1, HS2⟩, Hrest, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hrest Hg]
        · isplitl [HS0 HS1 HS2]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      by_cases hz : t.val = 0
      · exfalso; omega
      · rw [PhiS_castSucc V c t, PhiS_pos V c _ _ hz]
        iintro ⟨⟨⟨HS0, HS1, HS2⟩, Hrest, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest Hg]
        · isplitl [HS0 HS1 HS2]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the entry hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the entry's form back: the accumulators' named contents are forgotten. -/
theorem hout1 (c : Dev nD) : (dat1 V c).Φ (Fin.last cfg1.N) ⊢ Pipeline.ΦA spec1 c := by
  have hN : cfg1.N = 16 := N_1
  rw [show (dat1 V c).Φ (Fin.last cfg1.N) = PhiS V c (Fin.last cfg1.N).val (Nat.le_of_lt_succ (Fin.last cfg1.N).isLt) from rfl,
    PhiS_pos V c _ _ (by rw [Fin.val_last]; omega)]
  refine BIBase.Entails.trans ?_ (PhiA1_join c)
  iintro ⟨⟨HS0, HS1, HS2⟩, Hrest, Hg⟩
  isplitl [HS0 HS1 HS2]
  · isplitl [HS0]; · iexists _; iexact HS0
    isplitl [HS1]; · iexists _; iexact HS1
    iexists _; iexact HS2
  isplitl [Hrest]; · iexact Hrest
  iexact Hg

end Region

end Cert.Kernel.Hand

end
-- ==== Proof.K.Run.lean ====
/-
  The run of the whole program: the host lines, the gate-table kernel, the accumulating kernel.

  The contents of the core's buffers at each boundary are a fold from the launch memory: after the three host reshapes (`W1`), after
  the first region (`W2`: its arrays at what its write-backs leave, everything else as entered), after the second (`W3`).  Each region
  is entered from every unscoped buffer at the boundary's contents and left at the next boundary's.  The run ends with every unscoped
  buffer at `W3`: the arguments read back through the fold to their launch contents, and the result at what the second region's
  write-backs leave.
-/
import proofs.«164464_j21912923144501_2_alg».proof.Proof.K.GateRegion
import proofs.«164464_j21912923144501_2_alg».proof.Proof.K.AccRegion

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host line and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := (W2_arr m ρ c 5).trans (((dat0 (V1 m ρ) c).arrAt_in 5 rfl _).trans (A_eq0 (V1 m ρ) c 5))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The result array ends at what the second region's write-backs leave. -/
theorem W3_main_v4 (c : Dev nD) : W3 m ρ c (Proc.devRef .tc main_v4) = (dat1 (V2 m ρ) c).arrAt 3 cfg1.N := W3_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. The generator register enters its invariant beside
    the scoped buffers no window stages (the three accumulators among them) and comes back when the last point's invariant forgets
    the accumulators' contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_noalloc (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and every final
    state has every unscoped buffer of every core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c)⟩) (run_all m ρ)

/-- THE RESULT: the result array ends at what the second region's write-backs leave, the arguments as launched. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v4 (by decide))).trans (W3_main_v4 m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c)⟩) (run_all m ρ)

end Cert.Kernel.Hand

end
-- ==== Proof.KI.GateRegion.lean ====
/-
  The first kernel's region, at any float instance: what its one grid point leaves in the staging buffer of the
  gate table, and the body obligation of its pipeline.

  The pipeline has one grid point and seven windows, each a whole array: the predicate embeddings [512,256], the
  attention weights [512,256], the attention bias, the layer-norm scale and the layer-norm shift as rows [1,512],
  the mixing weights [512,512], and the result, the gate table [512,512].  The body loads each of the six inputs
  through the whole-buffer rectangle at offset zero, computes one pure term of the six loads, and stores it through
  the whole-buffer rectangle of the result; the one load of the result buffer made before the store is not used.
  So after the body every input buffer still holds its block, and the result buffer holds the payload of the six
  input blocks (`gateOut`).  Everything here is stated at a parameter `V`, the buffer contents when the region is
  entered, and never opens the payload.
-/
import proofs.«164464_j21912923144501_2_alg».proof.Proof.Gen.KernelIdeal.Launch
import proofs.«164464_j21912923144501_2_alg».proof.Proof.Gen.KernelIdeal.Skeleton
import proofs.«164464_j21912923144501_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 512 × 512: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof
    data whose array is `V`'s (`hA`) and whose body leaves the block in place (`hafter`): the window is uncut and
    never idle, and where it is not fetched its index has not moved.  One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the whole-buffer rectangle at offset zero, one per buffer shape -/

abbrev r0_0 : Rect S512x256 := Rect.unit (s := S512x256) ![0, 0] S512x256.size inb_S512x256_S512x256_0_0
abbrev r0_1 : Rect S1x512 := Rect.unit (s := S1x512) ![0, 0] S1x512.size inb_S1x512_S1x512_0_0
abbrev r0_2 : Rect S512x512 := Rect.unit (s := S512x512) ![0, 0] S512x512.size inb_S512x512_S512x512_0_0

/-! ## What the body leaves in the result window's buffer -/

/-- The result window's staging buffer after the body, from the six input windows' blocks: its one store as a
    piece, the payload the body's arithmetic over the six loads. -/
def gateOut (x0 x1 : Vec F S512x256 .f32) (x2 x3 x4 : Vec F S1x512 .f32) (x5 : Vec F S512x512 .f32) : Vec F S512x512 .f32 :=
  View.canon [⟨r0_2, k0_pay1 (View.ld x0 r0_0) (View.ld x1 r0_0) (View.ld x2 r0_1) (View.ld x3 r0_1) (View.ld x4 r0_1) (View.ld x5 r0_2)⟩]

/-- The one store is through the whole buffer, so it covers it. -/
theorem cover0_6 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-! ## The body's triple -/

set_option maxHeartbeats 1000000 in
/-- The kernel body on whole staging memrefs, the inputs' at read contents `xW` and the result's at anything, runs
    to the continuation holding the inputs' as they were and the result's at `gateOut` of the inputs'. -/
theorem sound_kernel0 (c : Dev nD) (E : Set ℕ) (i : grid0.Coords) (arg1 : Memref sig .tc .vmem S512x256 .f32) (harg1 : arg1.IsWhole) (arg2 : Memref sig .tc .vmem S512x256 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole)
    (x0 : Vec F S512x256 .f32) (x1 : Vec F S512x256 .f32) (x2 : Vec F S1x512 .f32) (x3 : Vec F S1x512 .f32) (x4 : Vec F S1x512 .f32) (x5 : Vec F S512x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (gateOut x0 x1 x2 x3 x4 x5)) -∗ K ⟨⟩))
      ⊢ wp frame (wpE (defs₀ (F := F)) Variants.none c none) E (cc0__m_kernel i arg1 harg1 arg2 harg2 arg3 harg3 arg4 harg4 arg5 harg5 arg6 harg6 arg7 harg7) K := by
  simp only [cc0__m_kernel_eq_skeleton]; unfold cc0__m_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of the pipeline on core `c`: the arrays as the region finds them (`V`); after the body at point
    `t` each input's buffer at its block and the result's at `gateOut` of the six input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => gateOut (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents (the definition projected, by `dsimp`). -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = gateOut (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.AccShared.lean ====
/-
  The accumulating kernel (the second region): what its three cases share.

  The grid is 2 × 2 × 4: a point t is the tile (t / 8, (t / 4) mod 2) of the result at the input block t mod 4.  The body branches twice on
  the input block's number: at block 0 it first resets the three accumulators, at block 3 it finally stores the tile.  Here: a window's
  block at a point as the region finds it; that an input window's staging buffer holds that block at every point; the two conditions in
  closed form; that the result window is idle (neither stored nor written back) except at block 3; the names of the staging and scratch
  memrefs; and the region's invariant written out over the core's scoped buffers.
-/
import proofs.«164464_j21912923144501_2_alg».proof.Proof.Gen.KernelIdeal.Launch
import proofs.«164464_j21912923144501_2_alg».proof.Proof.Gen.KernelIdeal.Skeleton
import proofs.«164464_j21912923144501_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions, decided over the grid -/

/-- "This is the first input block of the tile": the body's first branch. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last input block of the tile": the body's second branch. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last block the result window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last block it is live. -/
theorem liveAt1_3 : ∀ t : Fin cfg1.N, cond1_1 (grid1.coords t) → cfg1.idle 3 (grid1.coords t) = false := by decide +kernel

/-! ## The memrefs -/

/-- Each window's current staging memref at point `t`, as the pipeline passes it, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256 .f32 := win1_3.stage (cfg1.slots t 3)
abbrev hs1_3 (t : Fin cfg1.N) : (ms1_3 t).IsWhole := hstage1_3 ((cfg1.slots t 3).cast nbuf1_3)
/-- The three accumulators: whole scoped buffers of the kernel's own (product, sum, maximum). -/
abbrev scM1_0 : Memref sig .tc .vmem S128x256 .f32 := Memref.whole cc1_scratch0
abbrev scM1_1 : Memref sig .tc .vmem S128x256 .f32 := Memref.whole cc1_scratch1
abbrev scM1_2 : Memref sig .tc .vmem S128x256 .f32 := Memref.whole cc1_scratch2
/-- Views through which a buffer's contents after a list of stores are stated (the choice of buffer does not matter). -/
abbrev VO1_3 : View sig .tc .vmem S128x256 .f32 := (Memref.whole cc1_stg3_0 : Memref sig .tc .vmem S128x256 .f32).view
abbrev VS1_0 : View sig .tc .vmem S128x256 .f32 := scM1_0.view
abbrev VS1_1 : View sig .tc .vmem S128x256 .f32 := scM1_1.view
abbrev VS1_2 : View sig .tc .vmem S128x256 .f32 := scM1_2.view

/-! ## The invariant over the scoped buffers -/

/-- A scoped buffer whole at some contents. -/
abbrev held (c : Dev nD) (r : Ref sig .tc) : sProp 𝕄 :=
  iprop(∃ f : Buf (Elt F) ((c : Thread nD τ).loc r), ((c : Thread nD τ).loc r) ↦{fullShare} f)

/-- The other kernel's staging buffers, untouched by this region. -/
abbrev others (c : Dev nD) : sProp 𝕄 := iprop(held c cc0_stg0_0 ∗ held c cc0_stg1_0 ∗ held c cc0_stg2_0 ∗ held c cc0_stg3_0 ∗ held c cc0_stg4_0 ∗ held c cc0_stg5_0 ∗ held c cc0_stg6_0)

/-- What the region's entry hands the body: the other kernel's staging buffers and the three accumulators at anything,
    and the generator register at some state. -/
theorem PhiA1_eq (c : Dev nD) :
    (Pipeline.ΦA spec1 c : sProp 𝕄)
      = iprop(iprop(held c cc0_stg0_0 ∗ held c cc0_stg1_0 ∗ held c cc0_stg2_0 ∗ held c cc0_stg3_0 ∗ held c cc0_stg4_0 ∗ held c cc0_stg5_0 ∗ held c cc0_stg6_0 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.AccRunA.lean ====
/-
  The accumulating kernel's body at the first input block of a tile: the three accumulators are reset (whatever they held) and then updated; the result window is left as it was.
  Stated as a triple on whole memrefs: from the three input blocks (and the buffers named above) the body runs to the end, leaving the
  inputs as they were and each buffer it stores into with its stores applied, last store first; what those stores are is read off the run.
-/
import proofs.«164464_j21912923144501_2_alg».proof.Proof.KI.AccShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i)
    (x0 : Vec F S128x128 .f32) (x1 : Vec F S256x128 .f32) (x2 : Vec F S128x256 .f32) :
    Σ' (LS0 : List (View.Piece (Elt F) S128x256 .f32)) (LS1 : List (View.Piece (Elt F) S128x256 .f32)), { LS2 : List (View.Piece (Elt F) S128x256 .f32) //
      ∀ (xi3 : Vec F S128x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, ?_, fun xi3 E K => ?run⟩
  case run =>
    simp only [cc1__main_kernel_eq_skeleton]; unfold cc1__main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.AccRunB.lean ====
/-
  The accumulating kernel's body at a middle input block: the three accumulators, at what the block before left, are updated; the result window is left as it was.
  Stated as a triple on whole memrefs: from the three input blocks (and the buffers named above) the body runs to the end, leaving the
  inputs as they were and each buffer it stores into with its stores applied, last store first; what those stores are is read off the run.
-/
import proofs.«164464_j21912923144501_2_alg».proof.Proof.KI.AccRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i)
    (x0 : Vec F S128x128 .f32) (x1 : Vec F S256x128 .f32) (x2 : Vec F S128x256 .f32) (xs0 xs1 xs2 : Vec F S128x256 .f32) :
    Σ' (LS0 : List (View.Piece (Elt F) S128x256 .f32)) (LS1 : List (View.Piece (Elt F) S128x256 .f32)), { LS2 : List (View.Piece (Elt F) S128x256 .f32) //
      ∀ (xi3 : Vec F S128x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, ?_, fun xi3 E K => ?run⟩
  case run =>
    simp only [cc1__main_kernel_eq_skeleton]; unfold cc1__main_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.AccRunC.lean ====
/-
  The accumulating kernel's body at the last input block of a tile: the three accumulators, at what the block before left, are updated and the tile is stored to the result window.
  Stated as a triple on whole memrefs: from the three input blocks (and the buffers named above) the body runs to the end, leaving the
  inputs as they were and each buffer it stores into with its stores applied, last store first; what those stores are is read off the run.
-/
import proofs.«164464_j21912923144501_2_alg».proof.Proof.KI.AccRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i)
    (x0 : Vec F S128x128 .f32) (x1 : Vec F S256x128 .f32) (x2 : Vec F S128x256 .f32) (xs0 xs1 xs2 : Vec F S128x256 .f32) :
    Σ' (L3 : List (View.Piece (Elt F) S128x256 .f32)) (LS0 : List (View.Piece (Elt F) S128x256 .f32)) (LS1 : List (View.Piece (Elt F) S128x256 .f32)), { LS2 : List (View.Piece (Elt F) S128x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, ?_, ?_, fun E K => ?run⟩
  case run =>
    simp only [cc1__main_kernel_eq_skeleton]; unfold cc1__main_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.AccRegion.lean ====
/-
  The accumulating kernel (the second region): what its buffers hold point by point, and its body obligation.

  A tile's three accumulators live in scratch buffers the region keeps from one grid point to the next.  `outsAt1` says, by recursion on the
  point's number n, what the result window's staging buffer and the three accumulators hold after the body at point n: at a tile's first
  input block (n ≡ 0 mod 4) what the reset-and-update leaves; at a middle block the update of what point n − 1 left; at the last block
  (n ≡ 3) that update and the stored tile.  The region's invariant `PhiS` hands each point the accumulators at what the point before left;
  the body obligation is then, case by case, that case's run.
-/
import proofs.«164464_j21912923144501_2_alg».proof.Proof.KI.AccRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## What each case leaves -/

/-- Case A's stores into accumulator 0 tile it, so they cover it. -/
theorem scover1_A_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) (y : S128x256.Idx) :
    ∃ pc ∈ (kernelRun1_A c i arg3 harg3 arg4 harg4 arg5 harg5 arg6 harg6 arg7 harg7 arg8 harg8 arg9 harg9 hc0 hc1 x0 x1 x2).1, y ∈ pc.1.set :=
  View.cover_of_tiledL (kernelRun1_A c i arg3 harg3 arg4 harg4 arg5 harg5 arg6 harg6 arg7 harg7 arg8 harg8 arg9 harg9 hc0 hc1 x0 x1 x2).1 S128x256.size (by sl_kernel_rfl) y
/-- What case A leaves in accumulator 0: its stores read back. -/
def sout1_A_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) : Vec F S128x256 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).1)
/-- Case A's stores into accumulator 1 tile it, so they cover it. -/
theorem scover1_A_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) (y : S128x256.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S128x256.size (by sl_kernel_rfl) y
/-- What case A leaves in accumulator 1: its stores read back. -/
def sout1_A_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) : Vec F S128x256 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.1)
/-- Case A's stores into accumulator 2 tile it, so they cover it. -/
theorem scover1_A_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) (y : S128x256.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S128x256.size (by sl_kernel_rfl) y
/-- What case A leaves in accumulator 2: its stores read back. -/
def sout1_A_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) : Vec F S128x256 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.1)

/-- Case B's stores into accumulator 0 tile it, so they cover it. -/
theorem scover1_B_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) (y : S128x256.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S128x256.size (by sl_kernel_rfl) y
/-- What case B leaves in accumulator 0: its stores read back. -/
def sout1_B_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) : Vec F S128x256 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).1)
/-- Case B's stores into accumulator 1 tile it, so they cover it. -/
theorem scover1_B_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) (y : S128x256.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S128x256.size (by sl_kernel_rfl) y
/-- What case B leaves in accumulator 1: its stores read back. -/
def sout1_B_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) : Vec F S128x256 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.1)
/-- Case B's stores into accumulator 2 tile it, so they cover it. -/
theorem scover1_B_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) (y : S128x256.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S128x256.size (by sl_kernel_rfl) y
/-- What case B leaves in accumulator 2: its stores read back. -/
def sout1_B_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) : Vec F S128x256 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.1)

/-- Case C's stores into accumulator 0 tile it, so they cover it. -/
theorem scover1_C_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) (y : S128x256.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S128x256.size (by sl_kernel_rfl) y
/-- What case C leaves in accumulator 0: its stores read back. -/
def sout1_C_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) : Vec F S128x256 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)
/-- Case C's stores into accumulator 1 tile it, so they cover it. -/
theorem scover1_C_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) (y : S128x256.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S128x256.size (by sl_kernel_rfl) y
/-- What case C leaves in accumulator 1: its stores read back. -/
def sout1_C_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) : Vec F S128x256 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)
/-- Case C's stores into accumulator 2 tile it, so they cover it. -/
theorem scover1_C_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) (y : S128x256.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S128x256.size (by sl_kernel_rfl) y
/-- What case C leaves in accumulator 2: its stores read back. -/
def sout1_C_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) : Vec F S128x256 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)
/-- The last block's store into the result window covers it. -/
theorem cover1_C_3 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) (y : S128x256.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S128x256.size (by sl_kernel_rfl) y
/-- What the last block leaves in the result window: the tile. -/
def out1_C_3 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) : Vec F S128x256 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-! ## Point by point -/

/-- The result window's staging buffer and the three accumulators (product, sum, maximum) after a point. -/
abbrev St (F : FTy → Type) [FloatOps F] : Type :=
  Vec F S128x256 .f32 × Vec F S128x256 .f32 × Vec F S128x256 .f32 × Vec F S128x256 .f32

/-- THE ACCUMULATION: after the body at position `n`, by the case the closed forms select there; a case that reads the accumulators
    takes what position `n - 1` left.  (Away from a tile's last block the result window is neither stored nor written back: its
    component there is a placeholder nothing consults.) -/
def outsAt1 (c : Dev nD) : (n : ℕ) → n < cfg1.N → St F
  | 0, hn => (VO1_3.read (Elt F) VO1_3.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (VO1_3.read (Elt F) VO1_3.junk, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (VO1_3.read (Elt F) VO1_3.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a tile's first block. -/
theorem outsAt1_A (c : Dev nD) (t : Fin cfg1.N) (h0 : t.val % 4 = 0) (h1 : ¬t.val % 4 = 3) :
    outsAt1 V c t.val t.isLt = (VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle block, over what the point before left. -/
theorem outsAt1_B (c : Dev nD) (t : Fin cfg1.N) (h0 : ¬t.val % 4 = 0) (h1 : ¬t.val % 4 = 3) :
    outsAt1 V c t.val t.isLt = (VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a tile's last block, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The other kernel's staging buffers, each whole at some contents: they ride through this region untouched. -/
def gateStaging (c : Dev nD) : sProp 𝕄 := others (F := F) c

/-- What the region's entry hands the body, sorted: the three accumulators at anything, the other kernel's staging buffers, the
    generator register. -/
theorem PhiA1_split (c : Dev nD) :
    (Pipeline.ΦA spec1 c : sProp 𝕄) ⊢ iprop(iprop((∃ d, owns (c : Thread nD τ) scM1_0 fullShare d) ∗ (∃ d, owns (c : Thread nD τ) scM1_1 fullShare d) ∗ (∃ d, owns (c : Thread nD τ) scM1_2 fullShare d)) ∗ gateStaging (F := F) c ∗ (∃ r, prngReg c r)) := by
  rw [PhiA1_eq]; unfold gateStaging
  iintro ⟨⟨B0, B1, B2, B3, B4, B5, B6, HS0, HS1, HS2⟩, Hg⟩
  isplitl [HS0 HS1 HS2]
  · isplitl [HS0]; · iexact HS0
    isplitl [HS1]; · iexact HS1
    iexact HS2
  isplitl [B0 B1 B2 B3 B4 B5 B6]
  · isplitl [B0]; · iexact B0
    isplitl [B1]; · iexact B1
    isplitl [B2]; · iexact B2
    isplitl [B3]; · iexact B3
    isplitl [B4]; · iexact B4
    isplitl [B5]; · iexact B5
    iexact B6
  iexact Hg

/-- And back. -/
theorem PhiA1_join (c : Dev nD) :
    (iprop(iprop((∃ d, owns (c : Thread nD τ) scM1_0 fullShare d) ∗ (∃ d, owns (c : Thread nD τ) scM1_1 fullShare d) ∗ (∃ d, owns (c : Thread nD τ) scM1_2 fullShare d)) ∗ gateStaging (F := F) c ∗ (∃ r, prngReg c r)) : sProp 𝕄) ⊢ Pipeline.ΦA spec1 c := by
  rw [PhiA1_eq]; unfold gateStaging
  iintro ⟨⟨HS0, HS1, HS2⟩, ⟨B0, B1, B2, B3, B4, B5, B6⟩, Hg⟩
  isplitl [B0 B1 B2 B3 B4 B5 B6 HS0 HS1 HS2]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [HS0]; · iexact HS0
    isplitl [HS1]; · iexact HS1
    iexact HS2
  iexact Hg

/-- The region invariant before position `n`: before the first point what the entry hands over (every scratch at anything);
    afterwards the three accumulators at what the point before left, the other kernel's staging buffers, the generator register. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ gateStaging (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ gateStaging (F := F) c ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ gateStaging (F := F) c ∗ (∃ r, prngReg c r)) := by
  cases n with
  | zero => exact absurd rfl hz
  | succ n => rfl

/-! ## The proof data -/

/-- The proof data of the second pipeline on core `c`: the arrays as the region finds them (`V`); after the body at point `t` each
    input's buffer at its block and the result window's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]; try rfl
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]; try rfl
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]; try rfl

set_option maxHeartbeats 8000000 in
/-- The body at any point: the inputs' memrefs hold their blocks; the closed forms say which case the point is in; the invariant hands
    the body the accumulators at what the point before left (at anything before the first point) and takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 16 := lt_of_lt_of_eq t.isLt (show cfg1.N = 16 from N_1)
  by_cases h0 : t.val % 4 = 0
  · by_cases h1 : t.val % 4 = 3
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_split c) $$ HΦ
        icases HΦ' with ⟨⟨HS0, HS1, HS2⟩, Hrest, Hg⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest Hg]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HS1, HS2⟩, Hrest, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hrest Hg]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      by_cases hz : t.val = 0
      · exfalso; omega
      · rw [PhiS_castSucc V c t, PhiS_pos V c _ _ hz]
        iintro ⟨⟨⟨HS0, HS1, HS2⟩, Hrest, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hrest Hg]
        · isplitl [HS0 HS1 HS2]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      by_cases hz : t.val = 0
      · exfalso; omega
      · rw [PhiS_castSucc V c t, PhiS_pos V c _ _ hz]
        iintro ⟨⟨⟨HS0, HS1, HS2⟩, Hrest, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest Hg]
        · isplitl [HS0 HS1 HS2]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          isplitl [Hrest]; · iexact Hrest
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the entry hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the entry's form back: the accumulators' named contents are forgotten. -/
theorem hout1 (c : Dev nD) : (dat1 V c).Φ (Fin.last cfg1.N) ⊢ Pipeline.ΦA spec1 c := by
  have hN : cfg1.N = 16 := N_1
  rw [show (dat1 V c).Φ (Fin.last cfg1.N) = PhiS V c (Fin.last cfg1.N).val (Nat.le_of_lt_succ (Fin.last cfg1.N).isLt) from rfl,
    PhiS_pos V c _ _ (by rw [Fin.val_last]; omega)]
  refine BIBase.Entails.trans ?_ (PhiA1_join c)
  iintro ⟨⟨HS0, HS1, HS2⟩, Hrest, Hg⟩
  isplitl [HS0 HS1 HS2]
  · isplitl [HS0]; · iexists _; iexact HS0
    isplitl [HS1]; · iexists _; iexact HS1
    iexists _; iexact HS2
  isplitl [Hrest]; · iexact Hrest
  iexact Hg

end Region

end Cert.KernelIdeal.Hand

end
-- ==== Proof.KI.Run.lean ====
/-
  The run of the whole program: the host lines, the gate-table kernel, the accumulating kernel.

  The contents of the core's buffers at each boundary are a fold from the launch memory: after the three host reshapes (`W1`), after
  the first region (`W2`: its arrays at what its write-backs leave, everything else as entered), after the second (`W3`).  Each region
  is entered from every unscoped buffer at the boundary's contents and left at the next boundary's.  The run ends with every unscoped
  buffer at `W3`: the arguments read back through the fold to their launch contents, and the result at what the second region's
  write-backs leave.
-/
import proofs.«164464_j21912923144501_2_alg».proof.Proof.KI.GateRegion
import proofs.«164464_j21912923144501_2_alg».proof.Proof.KI.AccRegion

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host line and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := (W2_arr m ρ c 5).trans (((dat0 (V1 m ρ) c).arrAt_in 5 rfl _).trans (A_eq0 (V1 m ρ) c 5))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The result array ends at what the second region's write-backs leave. -/
theorem W3_main_v4 (c : Dev nD) : W3 m ρ c (Proc.devRef .tc main_v4) = (dat1 (V2 m ρ) c).arrAt 3 cfg1.N := W3_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. The generator register enters its invariant beside
    the scoped buffers no window stages (the three accumulators among them) and comes back when the last point's invariant forgets
    the accumulators' contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_noalloc (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and every final
    state has every unscoped buffer of every core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c)⟩) (run_all m ρ)

/-- THE RESULT: the result array ends at what the second region's write-backs leave, the arguments as launched. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v4 (by decide))).trans (W3_main_v4 m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c)⟩) (run_all m ρ)

end Cert.KernelIdeal.Hand

end
-- ==== Proof.Spec.lean ====
/-
  The specification: what both programs compute, as one function of the argument arrays on the extended reals.

  With s(i,o) = Σ_e pe(i,e)·aw(o,e) + ab(o) (the attention scores of predicate i for output o), the gate is the logistic of the
  layer-normalised scores over o:  g(i,o) = σ( (s(i,o) − μ(i)) · (v(i) + ε)^(−1/2) · lg(o) + lb(o) ),  μ and v the mean and the mean
  squared deviation of s(i,·) over the 512 outputs.  The gate table is  M(i,o) = |w(o,i)| · g(i,o),  the signed square of the input is
  c(b,i) = x(b,i)·|x(b,i)|,  and the result is
      G(b,o) = Σ_i x(b,i)·w(o,i)  +  δ · ( max_i c(b,i)·M(i,o)  −  Σ_i c(b,i)·M(i,o) ),
  the maximum taken from −∞.  ε, 512 and δ are the float words both programs print; they are never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A rank-2 array of extended reals of literal extents. -/
abbrev Arr2 (a b : Nat) : Type := FVec Ideal (⟨2, ![a, b]⟩ : Shape) .f32

/-- The layer norm's ε, the row length 512 and the mixing weight δ, as the words the programs print. -/
def eps : EReal := Ideal.ofBits .f32 0x3727C5AC#32
def len : EReal := Ideal.ofBits .f32 0x44000000#32
def delta : EReal := Ideal.ofBits .f32 0x3DCCCCCD#32

/-- |t| on the extended reals, as both programs compute it. -/
def absE (t : EReal) : EReal := max t (-t)

/-- The attention score of predicate `i` for output `o`. -/
def score (pe aw : Arr2 512 256) (ab : Fin 512 → EReal) (i o : Fin 512) : EReal :=
  (∑ e : Fin 256, pe (ix2 i e) * aw (ix2 o e)) + ab o

/-- The mean of a row of 512 entries. -/
def mean (f : Fin 512 → EReal) : EReal := Ideal.div (∑ o : Fin 512, f o) len

/-- Row `i`'s mean score and mean squared deviation. -/
def mu (pe aw : Arr2 512 256) (ab : Fin 512 → EReal) (i : Fin 512) : EReal := mean fun o => score pe aw ab i o
def var (pe aw : Arr2 512 256) (ab : Fin 512 → EReal) (i : Fin 512) : EReal :=
  mean fun o => (score pe aw ab i o - mu pe aw ab i) * (score pe aw ab i o - mu pe aw ab i)

/-- The gate: the logistic of the normalised, scaled and shifted score. -/
def gate (pe aw : Arr2 512 256) (ab lg lb : Fin 512 → EReal) (i o : Fin 512) : EReal :=
  Ideal.logistic ((score pe aw ab i o - mu pe aw ab i) * Ideal.rsqrt (var pe aw ab i + eps) * lg o + lb o)

/-- The gate table M(i,o) = |w(o,i)| · g(i,o). -/
def table (w : Arr2 512 512) (pe aw : Arr2 512 256) (ab lg lb : Fin 512 → EReal) (i o : Fin 512) : EReal :=
  absE (w (ix2 o i)) * gate pe aw ab lg lb i o

/-- The signed square c(b,i) = x(b,i)·|x(b,i)|. -/
def sq (x : Arr2 256 512) (b : Fin 256) (i : Fin 512) : EReal := x (ix2 b i) * absE (x (ix2 b i))

/-- The result from ANY table `M`: the product with the weights plus δ times (maximum − sum) of c·M over the inputs. -/
def mix (x : Arr2 256 512) (w : Arr2 512 512) (M : Fin 512 → Fin 512 → EReal) (b : Fin 256) (o : Fin 512) : EReal :=
  (∑ i : Fin 512, x (ix2 b i) * w (ix2 o i))
    + delta * ((Finset.univ.sup fun i : Fin 512 => sq x b i * M i o) - ∑ i : Fin 512, sq x b i * M i o)

/-- THE SPECIFICATION. -/
def G (x : Arr2 256 512) (w : Arr2 512 512) (pe aw : Arr2 512 256) (ab lg lb : Fin 512 → EReal) : Arr2 256 512 :=
  fun j => mix x w (table w pe aw ab lg lb) (j 0) (j 1)

end Cert.Spec

end
-- ==== Proof.RefLaws.lean ====
/-
  Laws of the extended reals used to match the reference's arrangement of the gated product with the specification's:
  the absolute value t ↦ max t (−t) is multiplicative on ALL extended reals (no finiteness needed), so
  |x·w| · (g · x) = (x·|x|) · (|w|·g); and the fold of max from −∞ over a finite family is its supremum.
-/
import proofs.«164464_j21912923144501_2_alg».proof.Proof.Spec

namespace Cert.RefLaws

open Cert.Spec

/-- |−t| = |t|. -/
theorem absE_neg (t : EReal) : absE (-t) = absE t := by
  unfold absE; rw [neg_neg, max_comm]

/-- |t| = t for t ≥ 0. -/
theorem absE_of_nonneg {t : EReal} (h : 0 ≤ t) : absE t = t :=
  max_eq_left (le_trans (EReal.neg_le_zero.mpr h) h)

/-- |a·b| = |a|·|b| for a, b ≥ 0. -/
theorem absE_mul_of_nonneg {a b : EReal} (ha : 0 ≤ a) (hb : 0 ≤ b) : absE (a * b) = absE a * absE b := by
  rw [absE_of_nonneg ha, absE_of_nonneg hb, absE_of_nonneg (EReal.mul_nonneg ha hb)]

/-- |a·b| = |a|·|b| on all extended reals, by the signs of a and b: a factor that is ≤ 0 is replaced by its negative,
    which changes neither side. -/
theorem absE_mul (a b : EReal) : absE (a * b) = absE a * absE b := by
  rcases le_total 0 a with ha | ha <;> rcases le_total 0 b with hb | hb
  · exact absE_mul_of_nonneg ha hb
  · have h := absE_mul_of_nonneg ha (EReal.neg_nonneg.mpr hb)
    rwa [mul_neg, absE_neg, absE_neg] at h
  · have h := absE_mul_of_nonneg (EReal.neg_nonneg.mpr ha) hb
    rwa [neg_mul, absE_neg, absE_neg] at h
  · have h := absE_mul_of_nonneg (EReal.neg_nonneg.mpr ha) (EReal.neg_nonneg.mpr hb)
    rwa [neg_mul_neg, absE_neg, absE_neg] at h

/-- The reference's summand |x·w| · (g · x) is the specification's (x·|x|) · (|w|·g): multiplication on the extended
    reals is commutative and associative, and the absolute value is multiplicative. -/
theorem summand (x w g : EReal) : absE (x * w) * (g * x) = (x * absE x) * (absE w * g) := by
  rw [absE_mul]; ac_rfl

/-- The fold of max from −∞ over a finite family is the family's supremum. -/
theorem fold_max_bot {ι : Type} (s : Finset ι) (f : ι → EReal) : s.fold max ⊥ f = s.sup f := rfl

end Cert.RefLaws
-- ==== Proof.RefIsG.lean ====
/-
  The reference's result, read index by index, is the specification `Cert.Spec.G` of the argument arrays.

  Each stage of the reference is read at an index built from literal coordinates: the scores s(i,o), their row mean μ(i)
  and mean squared deviation v(i), the normalised score, the gate σ(…), the summand |x·w|·(g·x) at (b,i,o) — which is
  (x·|x|)·(|w|·g), the specification's summand, by the multiplicativity of the absolute value —, its sum and its maximum
  over i, and the product with the weights. The transposes only exchange the two coordinates.
-/
import proofs.«164464_j21912923144501_2_alg».proof.Proof.Gen.ReferenceIdeal.Read
import proofs.«164464_j21912923144501_2_alg».proof.Proof.Spec
import proofs.«164464_j21912923144501_2_alg».proof.Proof.RefLaws
import Idealize.ShloMosaic.Lib.IdealHost

noncomputable section

namespace Cert.RefValue

open Idealize.ShloMosaic Idealize.ShloMosaic.ValueIdx Cert.ReferenceIdeal Cert.ReferenceIdeal.Gen Cert.ReferenceIdeal.Read

variable (x0 : FVec Ideal S256x512 .f32) (x1 : FVec Ideal S512x512 .f32) (x2 x3 : FVec Ideal S512x256 .f32)
  (x4 x5 x6 : FVec Ideal S512 .f32)

/-- The scores: s(i,o) = Σ_e pe(i,e)·aw(o,e) + ab(o). The transpose of aw exchanges the coordinates. -/
theorem score_at (i o : Fin 512) :
    val_main_v4 (F := Ideal) x2 x3 x4 (ix2 i o) = Cert.Spec.score x2 x3 (fun o => x4 (ix1 o)) i o := by
  rw [val_main_v4_apply, val_main_v1_apply, val_main_v3_apply, val_main_v2_apply, Ideal.addf_def]
  unfold Cert.Spec.score
  refine congrArg₂ (· + ·) (Finset.sum_congr rfl fun k _ => ?_) ?_
  · rw [val_main_v0_apply]
    refine congrArg₂ (· * ·) (congrArg x2 ?_) (congrArg x3 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x4 (funext fun a => Fin.ext (by match a with | ⟨0, _⟩ => rfl))

/-- The row means: μ(i) = (Σ_o s(i,o)) / 512. The sum's initial value is the zero word. -/
theorem mu_at (i : Fin 512) :
    val_main_v8 (F := Ideal) x2 x3 x4 (ix2 i (0 : Fin 1)) = Cert.Spec.mu x2 x3 (fun o => x4 (ix1 o)) i := by
  rw [val_main_v8_apply, val_main_v6_apply, val_main_v7_apply, val_main_cst_0_apply, val_main_v5_apply,
    val_main_cst_apply, Ideal.hostDivf_def]
  simp only [Ideal.ofBits_def]
  rw [Ideal.ofBits_zero_f32, zero_add]
  unfold Cert.Spec.mu Cert.Spec.mean Cert.Spec.len
  refine congrArg (Ideal.div · _) (Finset.sum_congr rfl fun k _ => ?_)
  beta_reduce
  rw [← score_at]
  exact congrArg _ (funext fun a => Fin.ext (by match a with | ⟨0, _⟩ => rfl | ⟨1, _⟩ => rfl))

/-- The deviations s(i,o) − μ(i), as the variance's operand spells them. -/
theorem dev_at (i o : Fin 512) :
    val_main_v10 (F := Ideal) x2 x3 x4 (ix2 i o)
      = Cert.Spec.score x2 x3 (fun o => x4 (ix1 o)) i o - Cert.Spec.mu x2 x3 (fun o => x4 (ix1 o)) i := by
  rw [val_main_v10_apply, val_main_v9_apply, Ideal.subf_def, score_at, ← mu_at]
  exact congrArg (_ - val_main_v8 (F := Ideal) x2 x3 x4 ·)
    (funext fun a => Fin.ext (by match a with | ⟨0, _⟩ => rfl | ⟨1, _⟩ => rfl))

/-- The deviations s(i,o) − μ(i), as the normalised score's operand spells them. -/
theorem dev'_at (i o : Fin 512) :
    val_main_v17 (F := Ideal) x2 x3 x4 (ix2 i o)
      = Cert.Spec.score x2 x3 (fun o => x4 (ix1 o)) i o - Cert.Spec.mu x2 x3 (fun o => x4 (ix1 o)) i := by
  rw [val_main_v17_apply, val_main_v16_apply, Ideal.subf_def, score_at, ← mu_at]
  exact congrArg (_ - val_main_v8 (F := Ideal) x2 x3 x4 ·)
    (funext fun a => Fin.ext (by match a with | ⟨0, _⟩ => rfl | ⟨1, _⟩ => rfl))

/-- The row mean squared deviations: v(i) = (Σ_o (s(i,o) − μ(i))²) / 512. -/
theorem var_at (i : Fin 512) :
    val_main_v15 (F := Ideal) x2 x3 x4 (ix2 i (0 : Fin 1)) = Cert.Spec.var x2 x3 (fun o => x4 (ix1 o)) i := by
  rw [val_main_v15_apply, val_main_v13_apply, val_main_v14_apply, val_main_cst_2_apply, val_main_v12_apply,
    val_main_cst_1_apply, Ideal.hostDivf_def]
  simp only [Ideal.ofBits_def]
  rw [Ideal.ofBits_zero_f32, zero_add]
  unfold Cert.Spec.var Cert.Spec.mean Cert.Spec.len
  refine congrArg (Ideal.div · _) (Finset.sum_congr rfl fun k _ => ?_)
  beta_reduce
  rw [val_main_v11_apply, Ideal.mulf_def, ← dev_at]
  exact congrArg (fun t => val_main_v10 (F := Ideal) x2 x3 x4 t * val_main_v10 (F := Ideal) x2 x3 x4 t)
    (funext fun a => Fin.ext (by match a with | ⟨0, _⟩ => rfl | ⟨1, _⟩ => rfl))

/-- The normalising factor (v(i) + ε)^(−1/2). -/
theorem rs_at (i : Fin 512) :
    val_main_v20 (F := Ideal) x2 x3 x4 (ix2 i (0 : Fin 1))
      = Ideal.rsqrt (Cert.Spec.var x2 x3 (fun o => x4 (ix1 o)) i + Cert.Spec.eps) := by
  rw [val_main_v20_apply, val_main_v19_apply, val_main_v18_apply, val_main_cst_3_apply, Ideal.hostUnary_rsqrt_def,
    Ideal.addf_def, var_at]
  rfl

/-- The normalised, scaled and shifted score. -/
theorem z_at (i o : Fin 512) :
    val_main_v28 (F := Ideal) x2 x3 x4 x5 x6 (ix2 i o)
      = (Cert.Spec.score x2 x3 (fun o => x4 (ix1 o)) i o - Cert.Spec.mu x2 x3 (fun o => x4 (ix1 o)) i)
          * Ideal.rsqrt (Cert.Spec.var x2 x3 (fun o => x4 (ix1 o)) i + Cert.Spec.eps) * x5 (ix1 o) + x6 (ix1 o) := by
  rw [val_main_v28_apply, val_main_v25_apply, val_main_v22_apply, val_main_v21_apply, val_main_v24_apply,
    val_main_v23_apply, val_main_v27_apply, val_main_v26_apply, Ideal.addf_def, Ideal.mulf_def, Ideal.mulf_def,
    dev'_at, ← rs_at]
  refine congrArg₂ (· + ·) (congrArg₂ (· * ·) (congrArg (_ * val_main_v20 (F := Ideal) x2 x3 x4 ·) ?_) (congrArg x5 ?_))
    (congrArg x6 ?_)
  · exact funext fun a => Fin.ext (by match a with | ⟨0, _⟩ => rfl | ⟨1, _⟩ => rfl)
  · exact funext fun a => Fin.ext (by match a with | ⟨0, _⟩ => rfl)
  · exact funext fun a => Fin.ext (by match a with | ⟨0, _⟩ => rfl)

/-- The gate: the reference spells the logistic as 1 / (1 + exp(−z)), with 1 the word of the float one. -/
theorem gate_at (i o : Fin 512) :
    val_main_v34 (F := Ideal) x2 x3 x4 x5 x6 (ix2 i o)
      = Cert.Spec.gate x2 x3 (fun o => x4 (ix1 o)) (fun o => x5 (ix1 o)) (fun o => x6 (ix1 o)) i o := by
  rw [val_main_v34_apply, val_main_v33_apply, val_main_cst_5_apply, val_main_v32_apply, val_main_v31_apply,
    val_main_cst_4_apply, val_main_v30_apply, val_main_v29_apply, z_at, Ideal.hostDivf_def, Ideal.addf_def,
    Ideal.hostUnary_exp_def, Ideal.hostNegf_def, Ideal.negf_def, Ideal.ofBits_def, Ideal.ofBits_one_f32]
  rfl

/-- The host's absolute value at the extended reals is t ↦ max t (−t). -/
theorem hostAbsf_eq (t : Ideal .f32) : FloatOps.hostAbsf t = Cert.Spec.absE t := rfl

/-- The summand at (b,i,o): the reference's |x·w| · (g · x) is the specification's (x·|x|) · (|w|·g). -/
theorem summand_at (b : Fin 256) (k o : Fin 512) :
    val_main_v46 (F := Ideal) x0 x1 x2 x3 x4 x5 x6 (ix3 b k o)
      = Cert.Spec.sq x0 b k
          * Cert.Spec.table x1 x2 x3 (fun o => x4 (ix1 o)) (fun o => x5 (ix1 o)) (fun o => x6 (ix1 o)) k o := by
  rw [val_main_v46_apply, val_main_v41_apply, val_main_v40_apply, val_main_v38_apply, val_main_v35_apply,
    val_main_v39_apply, val_main_v37_apply, val_main_v36_apply, val_main_v45_apply, val_main_v43_apply,
    val_main_v42_apply, val_main_v44_apply, val_main_v35_apply, Ideal.mulf_def, Ideal.mulf_def, Ideal.mulf_def,
    hostAbsf_eq]
  have e0 : idx_main_v35 (idx_main_v38 (ix3 b k o)) = ix2 b k :=
    funext fun a => Fin.ext (by match a with | ⟨0, _⟩ => rfl | ⟨1, _⟩ => rfl)
  have e1 : idx_main_v36 (idx_main_v37 (idx_main_v39 (ix3 b k o))) = ix2 o k :=
    funext fun a => Fin.ext (by match a with | ⟨0, _⟩ => rfl | ⟨1, _⟩ => rfl)
  have e2 : idx_main_v42 (idx_main_v43 (ix3 b k o)) = ix2 k o :=
    funext fun a => Fin.ext (by match a with | ⟨0, _⟩ => rfl | ⟨1, _⟩ => rfl)
  rw [e0, e1, e2, gate_at]
  unfold Cert.Spec.sq Cert.Spec.table
  exact Cert.RefLaws.summand _ _ _

/-- The sum of the summands over the inputs. -/
theorem sum_at (b : Fin 256) (o : Fin 512) :
    val_main_v48 (F := Ideal) x0 x1 x2 x3 x4 x5 x6 (ix2 b o)
      = ∑ k : Fin 512, Cert.Spec.sq x0 b k
          * Cert.Spec.table x1 x2 x3 (fun o => x4 (ix1 o)) (fun o => x5 (ix1 o)) (fun o => x6 (ix1 o)) k o := by
  rw [val_main_v48_apply, val_main_cst_7_apply, Ideal.ofBits_def, Ideal.ofBits_zero_f32, zero_add]
  refine Finset.sum_congr rfl fun k _ => ?_
  rw [← summand_at]
  exact congrArg _ (funext fun a => Fin.ext (by match a with | ⟨0, _⟩ => rfl | ⟨1, _⟩ => rfl | ⟨2, _⟩ => rfl))

/-- The word 0xFF800000 is −∞, the bottom of the extended reals. -/
theorem ofBits_neg_inf : Ideal.ofBits .f32 0xFF800000#32 = ⊥ := by simp [Ideal.ofBits, Ideal.ieee]

/-- The maximum of the summands over the inputs, from −∞: the host's maximum-reduce over axis 1 is the fold of max from
    the initial value over that axis's coordinates, which from −∞ is the supremum. -/
theorem max_at (b : Fin 256) (o : Fin 512) :
    val_main_v47 (F := Ideal) x0 x1 x2 x3 x4 x5 x6 (ix2 b o)
      = Finset.univ.sup fun k : Fin 512 => Cert.Spec.sq x0 b k
          * Cert.Spec.table x1 x2 x3 (fun o => x4 (ix1 o)) (fun o => x5 (ix1 o)) (fun o => x6 (ix1 o)) k o := by
  have hy := fun k : Fin 512 => summand_at x0 x1 x2 x3 x4 x5 x6 b k o
  unfold val_main_v47
  generalize val_main_v46 (F := Ideal) x0 x1 x2 x3 x4 x5 x6 = y at hy ⊢
  refine (Host.reduce_eq_fold_single (FloatOps.maximumf (F := Ideal) (φ := .f32)) y (val_main_cst_6 (F := Ideal))
    reducesTo_S256x512x512_S256x512_d1 (by decide) h_S_ (ix2 b o)).trans ?_
  rw [← Cert.RefLaws.fold_max_bot, val_main_cst_6_apply, Ideal.ofBits_def, ofBits_neg_inf]
  refine congrArg (fun f => Finset.fold max (⊥ : EReal) f (Finset.univ : Finset (Fin 512))) (funext fun k => ?_)
  rw [← hy k]
  exact congrArg y (funext fun a => Fin.ext (by match a with | ⟨0, _⟩ => rfl | ⟨1, _⟩ => rfl | ⟨2, _⟩ => rfl))

/-- The product with the weights: Σ_i x(b,i)·w(o,i). The transpose of w exchanges the coordinates. -/
theorem dot_at (b : Fin 256) (o : Fin 512) :
    val_main_v51 (F := Ideal) x0 x1 (ix2 b o) = ∑ i : Fin 512, x0 (ix2 b i) * x1 (ix2 o i) := by
  rw [val_main_v51_apply]
  refine Finset.sum_congr rfl fun k _ => ?_
  rw [val_main_v50_apply]
  refine congrArg₂ (· * ·) (congrArg x0 ?_) (congrArg x1 ?_)
  · exact funext fun a => Fin.ext (by match a with | ⟨0, _⟩ => rfl | ⟨1, _⟩ => rfl)
  · exact funext fun a => Fin.ext (by match a with | ⟨0, _⟩ => rfl | ⟨1, _⟩ => rfl)

/-- THE REFERENCE IS THE SPECIFICATION. -/
theorem ref_is_G :
    Cert.ReferenceIdeal.Read.val_main_v54 (F := Ideal) x0 x1 x2 x3 x4 x5 x6
      = Cert.Spec.G x0 x1 x2 x3 (fun o => x4 (ix1 o)) (fun o => x5 (ix1 o)) (fun o => x6 (ix1 o)) := by
  funext j
  obtain ⟨b, o, rfl⟩ : ∃ (b : Fin 256) (o : Fin 512), j = ix2 b o := ⟨j 0, j 1, eq_ix2 j⟩
  rw [val_main_v54_apply, val_main_v53_apply, val_main_v52_apply, val_main_cst_8_apply, val_main_v49_apply,
    dot_at, max_at, sum_at, Ideal.addf_def, Ideal.mulf_def, Ideal.subf_def, Ideal.ofBits_def]
  rfl

end Cert.RefValue

end
-- ==== Proof.LibKeepdims.lean ====
/-
  Keepdims layouts read at an index given by coordinates.

  A sum taken with `keepdims=True` leaves a unit axis where the summed axis was, so a kernel that brings a matrix down
  to a 1×1 cell one axis at a time passes through the column shapes: a vector `[a]` is made a column `[a, 1]`, a
  column is read back as a vector, laid as a row `[1, a]`, or broadcast across `b` columns. Each lemma reads one of
  these at an index written with `ix1` / `ix2`. The reason is the same every time: the unit coordinate `u : Fin 1`
  is `0`, so the row-major position of `(i, u)` in `[a, 1]` is `i · 1 + 0 = i`, the position of `i` in `[a]`
  and of `(0, i)` in `[1, a]`.

  These complete the leading-unit-axis forms of Lib/ValueLayout.lean (`shapeCast_a_1a_apply`, `shapeCast_1a_a_apply`,
  `broadcastTo_1b_ab_apply`) on the trailing side.
-/
import Idealize.ShloMosaic.Lib.ValueLayout

namespace Idealize.ShloMosaic.KeepdimsLayout

open Idealize.ShloMosaic Idealize.ShloMosaic.ValueIdx

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` cast to a row `[1, a]` reads, at `(u, i)`, the operand at `(i, 0)`: the transpose of a
    column costs nothing, both lay the `a` entries out in order. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` cast to a cell `[1, 1]` reads, anywhere, the operand's entry: the last step of a matrix
    summed down to one cell. -/
theorem shapeCast_1_11_apply (x : (⟨1, ![1]⟩ : Shape).Idx → α) (h : (⟨1, ![1]⟩ : Shape).ShapeCasts ⟨2, ![1, 1]⟩)
    (i u : Fin 1) : shapeCast ⟨2, ![1, 1]⟩ x h (ix2 i u) = x (ix1 (0 : Fin 1)) := by
  have hi : i = 0 := Subsingleton.elim _ _
  subst hi
  exact shapeCast_a_a1_apply x h 0 u

end Idealize.ShloMosaic.KeepdimsLayout
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.GateValue.lean ====
/-
  The gate table the first kernel stores, entry by entry, on the extended reals: it is the specification's table.

  The stored array is the body's arithmetic applied to the six whole input buffers (`gateOut_eq`).  Read at entry
  (i, o): the product of the embeddings with the transposed attention weights, accumulated into zero, is the sum over
  the 256 features of pe(i,e)·aw(o,e); with the bias row broadcast over the rows this is the score s(i,o).  A sum
  along a row kept as a column, divided by the row length and broadcast back over the columns, is the row's mean, so
  the two such sums give μ(i) and the mean squared deviation v(i).  Everything else acts lane by lane, and the last
  transpose reads |w| at (o, i).  Only 0 + x = x is used of the arithmetic: no entry need be finite.
-/
import proofs.«164464_j21912923144501_2_alg».proof.Proof.KI.GateRegion
import proofs.«164464_j21912923144501_2_alg».proof.Proof.Spec
import proofs.«164464_j21912923144501_2_alg».proof.Proof.LibKeepdims
import proofs.«164464_j21912923144501_2_alg».proof.Proof.LibDotRead

noncomputable section

namespace Cert.GateValue

open Idealize.ShloMosaic Idealize.ShloMosaic.ValueIdx
open Cert.KernelIdeal Cert.KernelIdeal.Gen Cert.KernelIdeal.Hand

/-- The offsets of a whole-buffer access are zero. -/
theorem hz : (![0, 0] : Fin 2 → Nat) = fun _ => 0 := funext fun a => by fin_cases a <;> rfl

section AnyInstance
variable {F : FTy → Type} [FloatOps F]

/-- One store through the whole buffer of the payload of six loads through whole buffers: the payload of the
    buffers' contents. -/
theorem gateOut_eq (x0 x1 : Vec F S512x256 .f32) (x2 x3 x4 : Vec F S1x512 .f32) (x5 : Vec F S512x512 .f32) :
    gateOut x0 x1 x2 x3 x4 x5 = k0_pay1 x0 x1 x2 x3 x4 x5 := by
  unfold gateOut
  rw [View.canon_unit_zero hz]
  simp only [View.ld_unit_zero (S := S512x256) hz, View.ld_unit_zero (S := S1x512) hz, View.ld_unit_zero (S := S512x512) hz]

end AnyInstance

/-! ## The non-pointwise operations of the payload, each read at explicit coordinates -/

/-- The product of the embeddings with the transposed attention weights, accumulated into zero: entry (i, o) is
    the sum over the 256 features of embedding i times weight row o. -/
theorem scores_apply (x0 x1 : FVec Ideal S512x256 .f32) (i o : Fin 512) :
    matmul dot_S512x256_S256x512_S512x512_1_0_0_1_n_n (some .fp32) x0
        (transpose S256x512 [1, 0] x1 transposes_S512x256_p1_0_S256x512) (constant (F := Ideal) S512x512 .f32 0x00000000#32) (ix2 i o)
      = ∑ e : Fin 256, x0 (ix2 i e) * x1 (ix2 o e) := by
  refine (DotRead.matmul_plain_zero_apply 512 256 512 (some .fp32) x0
    (transpose S256x512 [1, 0] x1 transposes_S512x256_p1_0_S256x512) i o).trans ?_
  refine Finset.sum_congr rfl fun e _ => ?_
  rw [transpose_ix2_apply]

/-- A row [1,512] broadcast over 512 rows, after the identity shape cast. -/
theorem row_apply (x : FVec Ideal S1x512 .f32) (i o : Fin 512) :
    broadcastTo S512x512 (shapeCast S1x512 x shapeCasts_S1x512_S1x512) broadcasts_S1x512_S512x512 (ix2 i o) = x (ix2 0 o) := by
  rw [shapeCast_self]
  exact broadcastTo_1b_ab_apply x broadcasts_S1x512_S512x512 i o

/-- A column [512,1] broadcast over 512 columns. -/
theorem col_apply (v : FVec Ideal S512x1 .f32) (i o : Fin 512) :
    broadcastTo S512x512 v broadcasts_S512x1_S512x512 (ix2 i o) = v (ix2 i 0) :=
  KeepdimsLayout.broadcastTo_a1_ab_apply v broadcasts_S512x1_S512x512 i o

/-- The sum of a matrix along its rows, kept as a column and divided by the row length: the mean of row i. -/
theorem rowMean_apply (s : FVec Ideal S512x512 .f32) (hφ : FKind.Formats .f32) (hacc : (0x00000000#32 : BitVec 32) = 0x00000000#32) (i : Fin 512) (u : Fin 1) :
    divf (shapeCast S512x1 (multiReduction .add [1] S512 s 0x00000000#32 reduces_S512x512_S512 hφ hacc) shapeCasts_S512_S512x1)
        (broadcast S512x1 (Scalar.ofBits (F := Ideal) .f32 0x44000000#32)) (ix2 i u)
      = Cert.Spec.mean fun o => s (ix2 i o) := by
  rw [divf_apply, broadcast_apply, KeepdimsLayout.shapeCast_a_a1_apply]
  refine congrArg (fun t => Ideal.div t _) ?_
  refine (Ideal.multiReduction_add_single s 0x00000000#32 reduces_S512x512_S512 hφ hacc (ix1 i)).trans ?_
  refine Finset.sum_congr rfl fun k _ => congrArg s ?_
  exact funext fun a => Fin.ext (by match a with | ⟨0, _⟩ => rfl | ⟨1, _⟩ => rfl)

/-! ## The payload in named stages -/

/-- The score matrix: the product accumulated into zero plus the bias row. -/
def scoreMat (x0 x1 : FVec Ideal S512x256 .f32) (x2 : FVec Ideal S1x512 .f32) : FVec Ideal S512x512 .f32 :=
  addf (matmul dot_S512x256_S256x512_S512x512_1_0_0_1_n_n (some .fp32) x0
      (transpose S256x512 [1, 0] x1 transposes_S512x256_p1_0_S256x512) (constant (F := Ideal) S512x512 .f32 0x00000000#32))
    (broadcastTo S512x512 (shapeCast S1x512 x2 shapeCasts_S1x512_S1x512) broadcasts_S1x512_S512x512)

/-- The column of row means of a matrix. -/
def meanCol (s : FVec Ideal S512x512 .f32) : FVec Ideal S512x1 .f32 :=
  divf (shapeCast S512x1 (multiReduction .add [1] S512 s 0x00000000#32 reduces_S512x512_S512 (.inl rfl) rfl) shapeCasts_S512_S512x1)
    (broadcast S512x1 (Scalar.ofBits (F := Ideal) .f32 0x44000000#32))

/-- A matrix minus its row means. -/
def centred (s : FVec Ideal S512x512 .f32) : FVec Ideal S512x512 .f32 :=
  subf s (broadcastTo S512x512 (meanCol s) broadcasts_S512x1_S512x512)

/-- The payload is the transposed absolute weights times the logistic of the normalised, scaled and shifted scores:
    its definition with the stages named (both sides unfold to the same term). -/
theorem pay_eq (x0 x1 : FVec Ideal S512x256 .f32) (x2 x3 x4 : FVec Ideal S1x512 .f32) (x5 : FVec Ideal S512x512 .f32) :
    k0_pay1 (F := Ideal) x0 x1 x2 x3 x4 x5
      = mulf (transpose S512x512 [1, 0] (absf x5) transposes_S512x512_p1_0_S512x512)
          (logistic (addf (mulf (mulf (centred (scoreMat x0 x1 x2))
              (broadcastTo S512x512 (rsqrt (addf (meanCol (mulf (centred (scoreMat x0 x1 x2)) (centred (scoreMat x0 x1 x2))))
                (broadcast S512x1 (Scalar.ofBits (F := Ideal) .f32 0x3727C5AC#32)))) broadcasts_S512x1_S512x512))
              (broadcastTo S512x512 (shapeCast S1x512 x3 shapeCasts_S1x512_S1x512) broadcasts_S1x512_S512x512))
            (broadcastTo S512x512 (shapeCast S1x512 x4 shapeCasts_S1x512_S1x512) broadcasts_S1x512_S512x512))) := rfl

theorem scoreMat_apply (x0 x1 : FVec Ideal S512x256 .f32) (x2 : FVec Ideal S1x512 .f32) (i o : Fin 512) :
    scoreMat x0 x1 x2 (ix2 i o) = Cert.Spec.score x0 x1 (fun o => x2 (ix2 0 o)) i o := by
  unfold scoreMat Cert.Spec.score
  rw [addf_apply, scores_apply, row_apply]

theorem meanCol_apply (s : FVec Ideal S512x512 .f32) (i : Fin 512) (u : Fin 1) :
    meanCol s (ix2 i u) = Cert.Spec.mean fun o => s (ix2 i o) :=
  rowMean_apply s (.inl rfl) rfl i u

theorem centred_apply (s : FVec Ideal S512x512 .f32) (i o : Fin 512) :
    centred s (ix2 i o) = s (ix2 i o) - Cert.Spec.mean fun o => s (ix2 i o) := by
  unfold centred
  rw [subf_apply, col_apply, meanCol_apply]

/-- The lane-by-lane operations at an index. -/
theorem logistic_apply {s : Shape} (a : FVec Ideal s .f32) (j : s.Idx) : logistic a j = Ideal.logistic (a j) := rfl
theorem rsqrt_apply {s : Shape} (a : FVec Ideal s .f32) (j : s.Idx) : rsqrt a j = Ideal.rsqrt (a j) := rfl
theorem absf_apply {s : Shape} (a : FVec Ideal s .f32) (j : s.Idx) : absf a j = Cert.Spec.absE (a j) := rfl

/-! ## The stored table is the specification's -/

theorem pay_apply (x0 x1 : FVec Ideal S512x256 .f32) (x2 x3 x4 : FVec Ideal S1x512 .f32) (x5 : FVec Ideal S512x512 .f32) (i o : Fin 512) :
    k0_pay1 (F := Ideal) x0 x1 x2 x3 x4 x5 (ix2 i o)
      = Cert.Spec.table x5 x0 x1 (fun o => x2 (ix2 0 o)) (fun o => x3 (ix2 0 o)) (fun o => x4 (ix2 0 o)) i o := by
  rw [pay_eq, mulf_apply, logistic_apply, addf_apply, mulf_apply, mulf_apply, row_apply, row_apply, col_apply, rsqrt_apply,
    addf_apply, broadcast_apply, meanCol_apply, centred_apply,
    transpose_ix2_apply (absf x5) transposes_S512x512_p1_0_S512x512 i o, absf_apply]
  simp only [mulf_apply, centred_apply, scoreMat_apply]
  rfl

theorem gateOut_apply (x0 x1 : FVec Ideal S512x256 .f32) (x2 x3 x4 : FVec Ideal S1x512 .f32) (x5 : FVec Ideal S512x512 .f32) (i o : Fin 512) :
    Cert.KernelIdeal.Hand.gateOut (F := Ideal) x0 x1 x2 x3 x4 x5 (ix2 i o)
      = Cert.Spec.table x5 x0 x1 (fun o => x2 (ix2 0 o)) (fun o => x3 (ix2 0 o)) (fun o => x4 (ix2 0 o)) i o := by
  rw [gateOut_eq]
  exact pay_apply x0 x1 x2 x3 x4 x5 i o

end Cert.GateValue

end
-- ==== Proof.GateFinal.lean ====
/-
  The first region's result array after its one write-back: the specification's gate table of the arrays the region
  found.

  The pipeline has one grid point, and at it every window's block is its whole array: each printed index map is zero
  on both axes, and a block's coordinate is index × size + the coordinate inside the block.  So each input block is
  the array it stages, the block the point writes back is the body's payload of the six arrays, which entry by entry
  is the gate table, and that one block covers every index of the result array.
-/
import proofs.«164464_j21912923144501_2_alg».proof.Proof.KI.GateRegion
import proofs.«164464_j21912923144501_2_alg».proof.Proof.GateValue
import Idealize.ShloMosaic.Lib.Pipeline.Value

set_option maxRecDepth 16384

noncomputable section

namespace Cert.GateFinal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The printed index maps, decided over the grid: every window's block index is zero on both axes. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## Each input window's block is the array it stages -/

theorem iblk_0 (c : Dev nD) (t : Fin cfg0.N) : iblk0 V c 0 t = (V c main_arg2 : S512x256.Idx → EReal) := by
  funext y
  show V c main_arg2 (((cfg0.win 0).blk t).view.emb y) = V c main_arg2 y
  obtain ⟨e0, e1, -⟩ := idx_facts t
  refine congrArg (V c main_arg2) (funext fun a => Fin.ext ?_)
  match a with
  | ⟨0, _⟩ => show win0_0.index t (0 : Fin 2) * 512 + 1 * (y 0).val = (y 0).val; omega
  | ⟨1, _⟩ => show win0_0.index t (1 : Fin 2) * 256 + 1 * (y 1).val = (y 1).val; omega

theorem iblk_1 (c : Dev nD) (t : Fin cfg0.N) : iblk0 V c 1 t = (V c main_arg3 : S512x256.Idx → EReal) := by
  funext y
  show V c main_arg3 (((cfg0.win 1).blk t).view.emb y) = V c main_arg3 y
  obtain ⟨-, -, e0, e1, -⟩ := idx_facts t
  refine congrArg (V c main_arg3) (funext fun a => Fin.ext ?_)
  match a with
  | ⟨0, _⟩ => show win0_1.index t (0 : Fin 2) * 512 + 1 * (y 0).val = (y 0).val; omega
  | ⟨1, _⟩ => show win0_1.index t (1 : Fin 2) * 256 + 1 * (y 1).val = (y 1).val; omega

theorem iblk_2 (c : Dev nD) (t : Fin cfg0.N) : iblk0 V c 2 t = (V c main_v0 : S1x512.Idx → EReal) := by
  funext y
  show V c main_v0 (((cfg0.win 2).blk t).view.emb y) = V c main_v0 y
  obtain ⟨-, -, -, -, e0, e1, -⟩ := idx_facts t
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

theorem iblk_3 (c : Dev nD) (t : Fin cfg0.N) : iblk0 V c 3 t = (V c main_v1 : S1x512.Idx → EReal) := by
  funext y
  show V c main_v1 (((cfg0.win 3).blk t).view.emb y) = V c main_v1 y
  obtain ⟨-, -, -, -, -, -, e0, e1, -⟩ := idx_facts t
  refine congrArg (V c main_v1) (funext fun a => Fin.ext ?_)
  match a with
  | ⟨0, _⟩ => show win0_3.index t (0 : Fin 2) * 1 + 1 * (y 0).val = (y 0).val; omega
  | ⟨1, _⟩ => show win0_3.index t (1 : Fin 2) * 512 + 1 * (y 1).val = (y 1).val; omega

theorem iblk_4 (c : Dev nD) (t : Fin cfg0.N) : iblk0 V c 4 t = (V c main_v2 : S1x512.Idx → EReal) := by
  funext y
  show V c main_v2 (((cfg0.win 4).blk t).view.emb y) = V c main_v2 y
  obtain ⟨-, -, -, -, -, -, -, -, e0, e1, -⟩ := idx_facts t
  refine congrArg (V c main_v2) (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem iblk_5 (c : Dev nD) (t : Fin cfg0.N) : iblk0 V c 5 t = (V c main_arg1 : S512x512.Idx → EReal) := by
  funext y
  show V c main_arg1 (((cfg0.win 5).blk t).view.emb y) = V c main_arg1 y
  obtain ⟨-, -, -, -, -, -, -, -, -, -, e0, e1, -⟩ := idx_facts t
  refine congrArg (V c main_arg1) (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

/-! ## The write-back and the cover -/

/-- The gate table of the arrays the region found, as one function of the result array's index. -/
def gateArr (c : Dev nD) : S512x512.Idx → EReal :=
  fun j => Cert.Spec.table (V c main_arg1) (V c main_arg2) (V c main_arg3) (fun o => V c main_v0 (ix2 0 o))
    (fun o => V c main_v1 (ix2 0 o)) (fun o => V c main_v2 (ix2 0 o)) (j 0) (j 1)

/-- What the one point writes back is its block of the gate table. -/
theorem flushed_eq (c : Dev nD) (t : Fin cfg0.N) :
    (dat0 (F := Ideal) V c).flushed 6 t = ((cfg0.win 6).blk t).view.read (Elt Ideal) (gateArr V c) := by
  show (cfg0.win 6).cut (grid0.coords t) ((dat0 V c).after 6 t) = _
  rw [after0_6, iblk_0 V c t, iblk_1 V c t, iblk_2 V c t, iblk_3 V c t, iblk_4 V c t, iblk_5 V c t]
  funext j
  show gateOut (F := Ideal) (V c main_arg2) (V c main_arg3) (V c main_v0) (V c main_v1) (V c main_v2) (V c main_arg1) j
    = gateArr V c (((cfg0.win 6).blk t).view.emb j)
  obtain ⟨-, -, -, -, -, -, -, -, -, -, -, -, e0, e1⟩ := idx_facts t
  have hj : ((cfg0.win 6).blk t).view.emb j = j := funext fun a => Fin.ext (by
    match a with
    | ⟨0, _⟩ => show win0_6.index t (0 : Fin 2) * 512 + 1 * (j 0).val = (j 0).val; omega
    | ⟨1, _⟩ => show win0_6.index t (1 : Fin 2) * 512 + 1 * (j 1).val = (j 1).val; omega)
  rw [hj]
  refine (congrArg (gateOut (F := Ideal) (V c main_arg2) (V c main_arg3) (V c main_v0) (V c main_v1) (V c main_v2) (V c main_arg1)) (eq_ix2 j)).trans ?_
  exact Cert.GateValue.gateOut_apply (V c main_arg2) (V c main_arg3) (V c main_v0) (V c main_v1) (V c main_v2) (V c main_arg1) (j 0) (j 1)

/-- An index of the result array is in point `t`'s block iff each coordinate is in the block's range on its axis. -/
theorem mem_blk (t : Fin cfg0.N) (i : S512x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v3).slice (win0_6.rect t)).set ↔ _
  rw [View.set_slice_whole, Rect.mem_set_unit]
  exact Iff.rfl

/-- The one point's block covers every index. -/
theorem cover (i : S512x512.Idx) : ∃ t : Fin cfg0.N, (cfg0.win 6).flush t = true ∧ i ∈ ((cfg0.win 6).blk t).view.set := by
  refine ⟨t0_0, flush0_6 t0_0, ?_⟩
  rw [mem_blk]
  obtain ⟨-, -, -, -, -, -, -, -, -, -, -, -, e0, e1⟩ := idx_facts t0_0
  intro a
  match a with
  | ⟨0, _⟩ => show win0_6.index t0_0 (0 : Fin 2) * 512 ≤ (i 0).val ∧ (i 0).val < win0_6.index t0_0 (0 : Fin 2) * 512 + 512; have hi : (i 0).val < 512 := (i 0).isLt; omega
  | ⟨1, _⟩ => show win0_6.index t0_0 (1 : Fin 2) * 512 ≤ (i 1).val ∧ (i 1).val < win0_6.index t0_0 (1 : Fin 2) * 512 + 512; have hi : (i 1).val < 512 := (i 1).isLt; omega

/-- The result array after the region: the gate table of the arrays the region found. -/
theorem gate_final (c : Dev nD) :
    (Cert.KernelIdeal.Hand.dat0 (F := Ideal) V c).arrAt 6 cfg0.N
      = fun j => Cert.Spec.table (V c main_arg1) (V c main_arg2) (V c main_arg3) (fun o => V c main_v0 (ix2 0 o)) (fun o => V c main_v1 (ix2 0 o)) (fun o => V c main_v2 (ix2 0 o)) (j 0) (j 1) :=
  (dat0 (F := Ideal) V c).arrAt_eq_of_cover 6 (gateArr V c) (fun t _ => flushed_eq V c t) (cover)

end Cert.GateFinal

end
-- ==== Proof.KI.AccStep.lean ====
/-
  One input block's update of a tile's three accumulators, as a pure function of the blocks the body loads.

  A tile (b, o) of the result is accumulated over the four blocks of the contracted axis.  Between two blocks the body keeps three
  128×256 arrays: the running product  P = Σ x·wᵀ,  the running sum  S = Σ c·M  and the running maximum  Q = max c·M  (c = x·|x|).
  `accInit` is what the first block starts from (zeros, zeros, −∞), `accStep` adds one block's contribution to each of the three,
  and `accOut` is what the last block writes to the result:  P + δ·(Q − S).  The arithmetic is the body's own (the skeleton's
  payloads), at any reading of the floats.
-/
import proofs.«164464_j21912923144501_2_alg».proof.Proof.Gen.KernelIdeal.Skeleton

noncomputable section

namespace Cert.KernelIdeal.Hand

open Idealize.ShloMosaic Cert.KernelIdeal Cert.KernelIdeal.Gen

variable {F : FTy → Type} [FloatOps F]

/-- The three accumulators of a tile: (product, sum, maximum). -/
abbrev Acc (F : FTy → Type) [FloatOps F] : Type :=
  Vec F S128x256 .f32 × Vec F S128x256 .f32 × Vec F S128x256 .f32

/-- Before the first block: zeros, zeros, −∞. -/
def accInit : Acc F := (k1_pay3 (F := F), k1_pay4 (F := F), k1_pay5 (F := F))

/-- One block: `x` the 128×128 block of the input, `w` the 256×128 block of the weights, `M` the 128×256 block of the gate table. -/
def accStep (x : Vec F S128x128 .f32) (w : Vec F S256x128 .f32) (M : Vec F S128x256 .f32) (s : Acc F) : Acc F :=
  (k1_pay7 x w s.1,
   k1_pay9 x M s.2.1,
   k1_pay1 (k1_pay6 M) (k1_pay8 x) (k1_pay11 (k1_pay6 M) (k1_pay8 x) s.2.2 (k1_pay10 x M)) (k1_pay12 (k1_pay6 M) (k1_pay8 x)))

/-- What the last block stores to the result: product + δ·(maximum − sum). -/
def accOut (s : Acc F) : Vec F S128x256 .f32 := k1_pay2 s.1 s.2.2 s.2.1

end Cert.KernelIdeal.Hand

end
-- ==== Proof.KI.AccTiles.lean ====
/-
  The accumulating kernel: the pieces its three cases store ARE the pure accumulator step.

  At every grid point the body updates a tile's three accumulators (running product, running sum, running maximum) by
  one input block; at a tile's first block it first resets them, at its last block it also stores the tile.  Each
  case's run leaves, in every buffer it stores into, a list of whole-buffer pieces, the last store first.  Read back,
  the last piece is the whole buffer, so the buffer holds that piece's payload; a payload that loads a buffer an
  earlier store of the same run filled reads that store's payload.  Hence each accumulator after a point is the
  matching component of `accStep` of the three input blocks and of what the accumulators held before (the reset
  values at a first block), and the tile stored at a last block is `accOut` of the accumulators just updated.
  By induction over the points, `outsAt1`'s accumulators are `accAt`: one step from the reset at a tile's first
  block, else one step from what the point before left.
-/
import proofs.«164464_j21912923144501_2_alg».proof.Proof.KI.AccRegion
import proofs.«164464_j21912923144501_2_alg».proof.Proof.KI.AccStep
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The offsets of a whole-buffer access are zero. -/
theorem hzAcc : (![0, 0] : Fin 2 → Nat) = fun _ => 0 := funext fun a => by fin_cases a <;> rfl

/-! ## One lemma per buffer and case: the stores read back are a component of the step -/

theorem soutA_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) :
    sout1_A_0 c i arg3 harg3 arg4 harg4 arg5 harg5 arg6 harg6 arg7 harg7 arg8 harg8 arg9 harg9 hc0 hc1 x0 x1 x2 = (accStep x0 x1 x2 accInit).1 := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  simp only [View.canon_unit_zero (S := S128x256) hzAcc, View.canon_cons_unit_zero (S := S128x256) hzAcc, View.readCov_unit_zero (S := S128x256) _ hzAcc,
    View.readAt_eq_ld, harg3.read_unread, harg4.read_unread, harg5.read_unread, harg7.read_unread, harg8.read_unread, harg9.read_unread,
    View.ld_unit_zero (S := S128x128) hzAcc, View.ld_unit_zero (S := S256x128) hzAcc, View.ld_unit_zero (S := S128x256) hzAcc]
  rfl

theorem soutA_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) :
    sout1_A_1 c i arg3 harg3 arg4 harg4 arg5 harg5 arg6 harg6 arg7 harg7 arg8 harg8 arg9 harg9 hc0 hc1 x0 x1 x2 = (accStep x0 x1 x2 accInit).2.1 := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  simp only [View.canon_unit_zero (S := S128x256) hzAcc, View.canon_cons_unit_zero (S := S128x256) hzAcc, View.readCov_unit_zero (S := S128x256) _ hzAcc,
    View.readAt_eq_ld, harg3.read_unread, harg4.read_unread, harg5.read_unread, harg7.read_unread, harg8.read_unread, harg9.read_unread,
    View.ld_unit_zero (S := S128x128) hzAcc, View.ld_unit_zero (S := S256x128) hzAcc, View.ld_unit_zero (S := S128x256) hzAcc]
  rfl

theorem soutA_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) :
    sout1_A_2 c i arg3 harg3 arg4 harg4 arg5 harg5 arg6 harg6 arg7 harg7 arg8 harg8 arg9 harg9 hc0 hc1 x0 x1 x2 = (accStep x0 x1 x2 accInit).2.2 := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  simp only [View.canon_unit_zero (S := S128x256) hzAcc, View.canon_cons_unit_zero (S := S128x256) hzAcc, View.readCov_unit_zero (S := S128x256) _ hzAcc,
    View.readAt_eq_ld, harg3.read_unread, harg4.read_unread, harg5.read_unread, harg7.read_unread, harg8.read_unread, harg9.read_unread,
    View.ld_unit_zero (S := S128x128) hzAcc, View.ld_unit_zero (S := S256x128) hzAcc, View.ld_unit_zero (S := S128x256) hzAcc]
  rfl

theorem soutB_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) :
    sout1_B_0 c i arg3 harg3 arg4 harg4 arg5 harg5 arg6 harg6 arg7 harg7 arg8 harg8 arg9 harg9 hc0 hc1 x0 x1 x2 xs0 xs1 xs2 = (accStep x0 x1 x2 (xs0, xs1, xs2)).1 := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  simp only [View.canon_unit_zero (S := S128x256) hzAcc, View.canon_cons_unit_zero (S := S128x256) hzAcc, View.readCov_unit_zero (S := S128x256) _ hzAcc,
    View.readAt_eq_ld, harg3.read_unread, harg4.read_unread, harg5.read_unread, harg7.read_unread, harg8.read_unread, harg9.read_unread,
    View.ld_unit_zero (S := S128x128) hzAcc, View.ld_unit_zero (S := S256x128) hzAcc, View.ld_unit_zero (S := S128x256) hzAcc]
  rfl

theorem soutB_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) :
    sout1_B_1 c i arg3 harg3 arg4 harg4 arg5 harg5 arg6 harg6 arg7 harg7 arg8 harg8 arg9 harg9 hc0 hc1 x0 x1 x2 xs0 xs1 xs2 = (accStep x0 x1 x2 (xs0, xs1, xs2)).2.1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  simp only [View.canon_unit_zero (S := S128x256) hzAcc, View.canon_cons_unit_zero (S := S128x256) hzAcc, View.readCov_unit_zero (S := S128x256) _ hzAcc,
    View.readAt_eq_ld, harg3.read_unread, harg4.read_unread, harg5.read_unread, harg7.read_unread, harg8.read_unread, harg9.read_unread,
    View.ld_unit_zero (S := S128x128) hzAcc, View.ld_unit_zero (S := S256x128) hzAcc, View.ld_unit_zero (S := S128x256) hzAcc]
  rfl

theorem soutB_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) :
    sout1_B_2 c i arg3 harg3 arg4 harg4 arg5 harg5 arg6 harg6 arg7 harg7 arg8 harg8 arg9 harg9 hc0 hc1 x0 x1 x2 xs0 xs1 xs2 = (accStep x0 x1 x2 (xs0, xs1, xs2)).2.2 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  simp only [View.canon_unit_zero (S := S128x256) hzAcc, View.canon_cons_unit_zero (S := S128x256) hzAcc, View.readCov_unit_zero (S := S128x256) _ hzAcc,
    View.readAt_eq_ld, harg3.read_unread, harg4.read_unread, harg5.read_unread, harg7.read_unread, harg8.read_unread, harg9.read_unread,
    View.ld_unit_zero (S := S128x128) hzAcc, View.ld_unit_zero (S := S256x128) hzAcc, View.ld_unit_zero (S := S128x256) hzAcc]
  rfl

theorem soutC_0 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) :
    sout1_C_0 c i arg3 harg3 arg4 harg4 arg5 harg5 arg6 harg6 arg7 harg7 arg8 harg8 arg9 harg9 hc0 hc1 x0 x1 x2 xs0 xs1 xs2 = (accStep x0 x1 x2 (xs0, xs1, xs2)).1 := by
  unfold sout1_C_0
  rw [View.read_writes_eq_canon _ _ _ (scover1_C_0 c i arg3 harg3 arg4 harg4 arg5 harg5 arg6 harg6 arg7 harg7 arg8 harg8 arg9 harg9 hc0 hc1 x0 x1 x2 xs0 xs1 xs2)]
  unfold kernelRun1_C
  dsimp only
  sl_unfold_words
  simp only [View.canon_unit_zero (S := S128x256) hzAcc, View.canon_cons_unit_zero (S := S128x256) hzAcc, View.readCov_unit_zero (S := S128x256) _ hzAcc,
    View.readAt_eq_ld, harg3.read_unread, harg4.read_unread, harg5.read_unread, harg7.read_unread, harg8.read_unread, harg9.read_unread,
    View.ld_unit_zero (S := S128x128) hzAcc, View.ld_unit_zero (S := S256x128) hzAcc, View.ld_unit_zero (S := S128x256) hzAcc]
  rfl

theorem soutC_1 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) :
    sout1_C_1 c i arg3 harg3 arg4 harg4 arg5 harg5 arg6 harg6 arg7 harg7 arg8 harg8 arg9 harg9 hc0 hc1 x0 x1 x2 xs0 xs1 xs2 = (accStep x0 x1 x2 (xs0, xs1, xs2)).2.1 := by
  unfold sout1_C_1
  rw [View.read_writes_eq_canon _ _ _ (scover1_C_1 c i arg3 harg3 arg4 harg4 arg5 harg5 arg6 harg6 arg7 harg7 arg8 harg8 arg9 harg9 hc0 hc1 x0 x1 x2 xs0 xs1 xs2)]
  unfold kernelRun1_C
  dsimp only
  sl_unfold_words
  simp only [View.canon_unit_zero (S := S128x256) hzAcc, View.canon_cons_unit_zero (S := S128x256) hzAcc, View.readCov_unit_zero (S := S128x256) _ hzAcc,
    View.readAt_eq_ld, harg3.read_unread, harg4.read_unread, harg5.read_unread, harg7.read_unread, harg8.read_unread, harg9.read_unread,
    View.ld_unit_zero (S := S128x128) hzAcc, View.ld_unit_zero (S := S256x128) hzAcc, View.ld_unit_zero (S := S128x256) hzAcc]
  rfl

theorem soutC_2 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) :
    sout1_C_2 c i arg3 harg3 arg4 harg4 arg5 harg5 arg6 harg6 arg7 harg7 arg8 harg8 arg9 harg9 hc0 hc1 x0 x1 x2 xs0 xs1 xs2 = (accStep x0 x1 x2 (xs0, xs1, xs2)).2.2 := by
  unfold sout1_C_2
  rw [View.read_writes_eq_canon _ _ _ (scover1_C_2 c i arg3 harg3 arg4 harg4 arg5 harg5 arg6 harg6 arg7 harg7 arg8 harg8 arg9 harg9 hc0 hc1 x0 x1 x2 xs0 xs1 xs2)]
  unfold kernelRun1_C
  dsimp only
  sl_unfold_words
  simp only [View.canon_unit_zero (S := S128x256) hzAcc, View.canon_cons_unit_zero (S := S128x256) hzAcc, View.readCov_unit_zero (S := S128x256) _ hzAcc,
    View.readAt_eq_ld, harg3.read_unread, harg4.read_unread, harg5.read_unread, harg7.read_unread, harg8.read_unread, harg9.read_unread,
    View.ld_unit_zero (S := S128x128) hzAcc, View.ld_unit_zero (S := S256x128) hzAcc, View.ld_unit_zero (S := S128x256) hzAcc]
  rfl

theorem outC_3 (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) :
    out1_C_3 c i arg3 harg3 arg4 harg4 arg5 harg5 arg6 harg6 arg7 harg7 arg8 harg8 arg9 harg9 hc0 hc1 x0 x1 x2 xs0 xs1 xs2 = accOut (accStep x0 x1 x2 (xs0, xs1, xs2)) := by
  unfold out1_C_3
  rw [View.read_writes_eq_canon _ _ _ (cover1_C_3 c i arg3 harg3 arg4 harg4 arg5 harg5 arg6 harg6 arg7 harg7 arg8 harg8 arg9 harg9 hc0 hc1 x0 x1 x2 xs0 xs1 xs2)]
  unfold kernelRun1_C
  dsimp only
  sl_unfold_words
  simp only [View.canon_unit_zero (S := S128x256) hzAcc, View.canon_cons_unit_zero (S := S128x256) hzAcc, View.readCov_unit_zero (S := S128x256) _ hzAcc,
    View.readAt_eq_ld, harg3.read_unread, harg4.read_unread, harg5.read_unread, harg7.read_unread, harg8.read_unread, harg9.read_unread,
    View.ld_unit_zero (S := S128x128) hzAcc, View.ld_unit_zero (S := S256x128) hzAcc, View.ld_unit_zero (S := S128x256) hzAcc]
  rfl

/-! ## The three accumulators together, per case -/

/-- A tile's first block: the step from the reset values. -/
theorem accA (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : cond1_0 i) (hc1 : ¬cond1_1 i) (x0 : Vec F S128x128 .f32) (x1 : Vec F S256x128 .f32) (x2 : Vec F S128x256 .f32) :
    (sout1_A_0 c i arg3 harg3 arg4 harg4 arg5 harg5 arg6 harg6 arg7 harg7 arg8 harg8 arg9 harg9 hc0 hc1 x0 x1 x2, sout1_A_1 c i arg3 harg3 arg4 harg4 arg5 harg5 arg6 harg6 arg7 harg7 arg8 harg8 arg9 harg9 hc0 hc1 x0 x1 x2, sout1_A_2 c i arg3 harg3 arg4 harg4 arg5 harg5 arg6 harg6 arg7 harg7 arg8 harg8 arg9 harg9 hc0 hc1 x0 x1 x2) = accStep x0 x1 x2 accInit := by
  rw [soutA_0, soutA_1, soutA_2]

/-- A middle block: the step from what the accumulators held. -/
theorem accB (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : ¬cond1_1 i) (x0 : Vec F S128x128 .f32) (x1 : Vec F S256x128 .f32) (x2 : Vec F S128x256 .f32) (xs0 xs1 xs2 : Vec F S128x256 .f32) :
    (sout1_B_0 c i arg3 harg3 arg4 harg4 arg5 harg5 arg6 harg6 arg7 harg7 arg8 harg8 arg9 harg9 hc0 hc1 x0 x1 x2 xs0 xs1 xs2, sout1_B_1 c i arg3 harg3 arg4 harg4 arg5 harg5 arg6 harg6 arg7 harg7 arg8 harg8 arg9 harg9 hc0 hc1 x0 x1 x2 xs0 xs1 xs2, sout1_B_2 c i arg3 harg3 arg4 harg4 arg5 harg5 arg6 harg6 arg7 harg7 arg8 harg8 arg9 harg9 hc0 hc1 x0 x1 x2 xs0 xs1 xs2) = accStep x0 x1 x2 (xs0, xs1, xs2) := by
  rw [soutB_0, soutB_1, soutB_2]

/-- A tile's last block: the same step. -/
theorem accC (c : Dev nD) (i : grid1.Coords) (arg3 : Memref sig .tc .vmem S128x128 .f32) (harg3 : arg3.IsWhole) (arg4 : Memref sig .tc .vmem S256x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (hc0 : ¬cond1_0 i) (hc1 : cond1_1 i) (x0 : Vec F S128x128 .f32) (x1 : Vec F S256x128 .f32) (x2 : Vec F S128x256 .f32) (xs0 xs1 xs2 : Vec F S128x256 .f32) :
    (sout1_C_0 c i arg3 harg3 arg4 harg4 arg5 harg5 arg6 harg6 arg7 harg7 arg8 harg8 arg9 harg9 hc0 hc1 x0 x1 x2 xs0 xs1 xs2, sout1_C_1 c i arg3 harg3 arg4 harg4 arg5 harg5 arg6 harg6 arg7 harg7 arg8 harg8 arg9 harg9 hc0 hc1 x0 x1 x2 xs0 xs1 xs2, sout1_C_2 c i arg3 harg3 arg4 harg4 arg5 harg5 arg6 harg6 arg7 harg7 arg8 harg8 arg9 harg9 hc0 hc1 x0 x1 x2 xs0 xs1 xs2) = accStep x0 x1 x2 (xs0, xs1, xs2) := by
  rw [soutC_0, soutC_1, soutC_2]

section Tiles

variable (V : (c : Dev nD) → (b : Ref sig .tc) → Buf (Elt F) ((c : Thread nD τ).loc b))

/-- The three accumulators after point n: one step from the reset at a tile's first block, else one step from what point n − 1 left. -/
def accAt (c : Dev nD) : (n : ℕ) → n < cfg1.N → Acc F
  | 0, hn => accStep (iblk1 V c 0 ⟨0, hn⟩) (iblk1 V c 1 ⟨0, hn⟩) (iblk1 V c 2 ⟨0, hn⟩) accInit
  | n + 1, hn => accStep (iblk1 V c 0 ⟨n + 1, hn⟩) (iblk1 V c 1 ⟨n + 1, hn⟩) (iblk1 V c 2 ⟨n + 1, hn⟩)
      (if (n + 1) % 4 = 0 then accInit else accAt c n (Nat.lt_of_succ_lt hn))

theorem accAt_zero (c : Dev nD) (hn : 0 < cfg1.N) :
    accAt V c 0 hn = accStep (iblk1 V c 0 ⟨0, hn⟩) (iblk1 V c 1 ⟨0, hn⟩) (iblk1 V c 2 ⟨0, hn⟩) accInit := rfl

theorem accAt_succ (c : Dev nD) (n : ℕ) (hn : n + 1 < cfg1.N) :
    accAt V c (n + 1) hn = accStep (iblk1 V c 0 ⟨n + 1, hn⟩) (iblk1 V c 1 ⟨n + 1, hn⟩) (iblk1 V c 2 ⟨n + 1, hn⟩)
      (if (n + 1) % 4 = 0 then accInit else accAt V c n (Nat.lt_of_succ_lt hn)) := rfl

/-- At a tile's first block the accumulators `outsAt1` names are one step from the reset values. -/
theorem acc_first (c : Dev nD) (t : Fin cfg1.N) (h0 : t.val % 4 = 0) :
    ((outsAt1 V c t.val t.isLt).2.1, (outsAt1 V c t.val t.isLt).2.2.1, (outsAt1 V c t.val t.isLt).2.2.2)
      = accStep (iblk1 V c 0 t) (iblk1 V c 1 t) (iblk1 V c 2 t) accInit := by
  have h1 : ¬t.val % 4 = 3 := by omega
  rw [outsAt1_A V c t h0 h1]
  dsimp only
  exact accA c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)

/-- At any later block of a tile they are one step from what the point before left. -/
theorem acc_next (c : Dev nD) (t : Fin cfg1.N) (h0 : ¬t.val % 4 = 0) :
    ((outsAt1 V c t.val t.isLt).2.1, (outsAt1 V c t.val t.isLt).2.2.1, (outsAt1 V c t.val t.isLt).2.2.2)
      = accStep (iblk1 V c 0 t) (iblk1 V c 1 t) (iblk1 V c 2 t)
          ((outsAt1 V c (t.val - 1) (Nat.lt_of_le_of_lt (Nat.sub_le _ _) t.isLt)).2.1, (outsAt1 V c (t.val - 1) (Nat.lt_of_le_of_lt (Nat.sub_le _ _) t.isLt)).2.2.1, (outsAt1 V c (t.val - 1) (Nat.lt_of_le_of_lt (Nat.sub_le _ _) t.isLt)).2.2.2) := by
  by_cases h1 : t.val % 4 = 3
  · rw [outsAt1_C V c t h0 h1]
    dsimp only
    exact accC c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
  · rw [outsAt1_B V c t h0 h1]
    dsimp only
    exact accB c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- At a tile's last block the stored tile is `accOut` of one step from what the point before left. -/
theorem tile_last (c : Dev nD) (t : Fin cfg1.N) (h0 : ¬t.val % 4 = 0) (h1 : t.val % 4 = 3) :
    (outsAt1 V c t.val t.isLt).1
      = accOut (accStep (iblk1 V c 0 t) (iblk1 V c 1 t) (iblk1 V c 2 t)
          ((outsAt1 V c (t.val - 1) (Nat.lt_of_le_of_lt (Nat.sub_le _ _) t.isLt)).2.1, (outsAt1 V c (t.val - 1) (Nat.lt_of_le_of_lt (Nat.sub_le _ _) t.isLt)).2.2.1, (outsAt1 V c (t.val - 1) (Nat.lt_of_le_of_lt (Nat.sub_le _ _) t.isLt)).2.2.2)) := by
  rw [outsAt1_C V c t h0 h1]
  dsimp only
  exact outC_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t)
    (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- The accumulators `outsAt1` names after point n are `accAt`. -/
theorem outsAt1_acc (c : Dev nD) (n : ℕ) (hn : n < cfg1.N) :
    ((outsAt1 V c n hn).2.1, (outsAt1 V c n hn).2.2.1, (outsAt1 V c n hn).2.2.2) = accAt V c n hn := by
  induction n with
  | zero => exact acc_first V c ⟨0, hn⟩ (Nat.zero_mod 4)
  | succ n ih =>
    rw [accAt_succ]
    by_cases h0 : (n + 1) % 4 = 0
    · rw [if_pos h0]
      exact acc_first V c ⟨n + 1, hn⟩ h0
    · rw [if_neg h0, ← ih (Nat.lt_of_succ_lt hn)]
      exact acc_next V c ⟨n + 1, hn⟩ h0

/-- The tile stored at a tile's last block is `accOut` of the accumulators after that block. -/
theorem outsAt1_tile (c : Dev nD) (t : Fin cfg1.N) (h : t.val % 4 = 3) :
    (outsAt1 V c t.val t.isLt).1 = accOut (accAt V c t.val t.isLt) := by
  have h0 : ¬t.val % 4 = 0 := by omega
  rw [tile_last V c t h0 h, ← acc_next V c t h0, outsAt1_acc]

end Tiles

end Cert.KernelIdeal.Hand

end
-- ==== Proof.AccBlocks.lean ====
/-
  The second region's blocks at explicit coordinates, the two regroupings of a contraction taken in four blocks, and the cover.

  The grid is 2 × 2 × 4: point t is the result tile (t / 8, (t / 4) mod 2) at input block t mod 4.  The printed index maps,
  decided once over the sixteen points, put the input block (b-tile, input block) of x, (o-tile, input block) of the weights,
  (input block, o-tile) of the gate table and (b-tile, o-tile) of the result at point t; a block's coordinate in its array is
  index × size + the coordinate inside the block.  A sum over the 512 inputs is the sum over four runs of 128, and a supremum
  likewise (only commutativity and associativity of addition, and the least-upper-bound property, are used).  Every index of
  the result lies in the block of the last point of its tile.
-/
import proofs.«164464_j21912923144501_2_alg».proof.Proof.KI.AccShared
import proofs.«164464_j21912923144501_2_alg».proof.Proof.Spec
import Idealize.ShloMosaic.Lib.Pipeline.Value

set_option maxRecDepth 16384

noncomputable section

namespace Cert.AccFinal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The printed index maps, decided over the grid. -/
theorem idx_facts : ∀ t : Fin cfg1.N,
    win1_0.index t (0 : Fin 2) = t.val / 8 ∧ win1_0.index t (1 : Fin 2) = t.val % 4
    ∧ win1_1.index t (0 : Fin 2) = t.val / 4 % 2 ∧ win1_1.index t (1 : Fin 2) = t.val % 4
    ∧ win1_2.index t (0 : Fin 2) = t.val % 4 ∧ win1_2.index t (1 : Fin 2) = t.val / 4 % 2
    ∧ win1_3.index t (0 : Fin 2) = t.val / 8 ∧ win1_3.index t (1 : Fin 2) = t.val / 4 % 2 :=
  (by decide +kernel : ∀ t : Fin grid1.N, _)

/-! ## Each input window's block at explicit coordinates -/

/-- The input block of x at point `t`: rows of the b-tile, columns of the input block. -/
theorem iblk_0_apply (c : Dev nD) (t : Fin cfg1.N) (p i : Fin 128) (r : Fin 256) (n : Fin 512)
    (hr : r.val = 128 * (t.val / 8) + p.val) (hn : n.val = 128 * (t.val % 4) + i.val) :
    iblk1 V c 0 t (ix2 p i) = (V c main_arg0 : S256x512.Idx → EReal) (ix2 r n) := by
  show V c main_arg0 (((cfg1.win 0).blk t).view.emb (ix2 p i)) = V c main_arg0 (ix2 r n)
  obtain ⟨e0, e1, -⟩ := idx_facts t
  refine congrArg (V c main_arg0) (funext fun a => Fin.ext ?_)
  match a with
  | ⟨0, _⟩ => show win1_0.index t (0 : Fin 2) * 128 + 1 * p.val = r.val; omega
  | ⟨1, _⟩ => show win1_0.index t (1 : Fin 2) * 128 + 1 * i.val = n.val; omega

/-- The block of the weights at point `t`: rows of the o-tile, columns of the input block. -/
theorem iblk_1_apply (c : Dev nD) (t : Fin cfg1.N) (q : Fin 256) (i : Fin 128) (o n : Fin 512)
    (ho : o.val = 256 * (t.val / 4 % 2) + q.val) (hn : n.val = 128 * (t.val % 4) + i.val) :
    iblk1 V c 1 t (ix2 q i) = (V c main_arg1 : S512x512.Idx → EReal) (ix2 o n) := by
  show V c main_arg1 (((cfg1.win 1).blk t).view.emb (ix2 q i)) = V c main_arg1 (ix2 o n)
  obtain ⟨-, -, e0, e1, -⟩ := idx_facts t
  refine congrArg (V c main_arg1) (funext fun a => Fin.ext ?_)
  match a with
  | ⟨0, _⟩ => show win1_1.index t (0 : Fin 2) * 256 + 1 * q.val = o.val; omega
  | ⟨1, _⟩ => show win1_1.index t (1 : Fin 2) * 128 + 1 * i.val = n.val; omega

/-- The block of the gate table at point `t`: rows of the input block, columns of the o-tile. -/
theorem iblk_2_apply (c : Dev nD) (t : Fin cfg1.N) (i : Fin 128) (q : Fin 256) (n o : Fin 512)
    (hn : n.val = 128 * (t.val % 4) + i.val) (ho : o.val = 256 * (t.val / 4 % 2) + q.val) :
    iblk1 V c 2 t (ix2 i q) = (V c main_v3 : S512x512.Idx → EReal) (ix2 n o) := by
  show V c main_v3 (((cfg1.win 2).blk t).view.emb (ix2 i q)) = V c main_v3 (ix2 n o)
  obtain ⟨-, -, -, -, e0, e1, -⟩ := idx_facts t
  refine congrArg (V c main_v3) (funext fun a => Fin.ext ?_)
  match a with
  | ⟨0, _⟩ => show win1_2.index t (0 : Fin 2) * 128 + 1 * i.val = n.val; omega
  | ⟨1, _⟩ => show win1_2.index t (1 : Fin 2) * 256 + 1 * q.val = o.val; omega

/-- Where an entry of the result block at point `t` sits in the result array. -/
theorem oblk_emb (t : Fin cfg1.N) (p : Fin 128) (q : Fin 256) (r : Fin 256) (o : Fin 512)
    (hr : r.val = 128 * (t.val / 8) + p.val) (ho : o.val = 256 * (t.val / 4 % 2) + q.val) :
    ((cfg1.win 3).blk t).view.emb (ix2 p q) = (ix2 r o : S256x512.Idx) := by
  obtain ⟨-, -, -, -, -, -, e0, e1⟩ := idx_facts t
  refine funext fun a => Fin.ext ?_
  match a with
  | ⟨0, _⟩ => show win1_3.index t (0 : Fin 2) * 128 + 1 * p.val = r.val; omega
  | ⟨1, _⟩ => show win1_3.index t (1 : Fin 2) * 256 + 1 * q.val = o.val; omega

/-! ## A contraction over 512 inputs taken in four blocks of 128 -/

/-- A sum over the 512 inputs is the sum over the four blocks of 128. -/
theorem sum_blocks {β : Type*} [AddCommMonoid β] (f : Fin 512 → β) :
    ∑ k : Fin 4, ∑ i : Fin 128, f ⟨128 * k.val + i.val, by omega⟩ = ∑ n : Fin 512, f n := by
  have e : ∑ n : Fin 512, f n = ∑ x : Fin 4 × Fin 128, f (finProdFinEquiv x) :=
    (Equiv.sum_comp (finProdFinEquiv (m := 4) (n := 128)) f).symm
  rw [e, Fintype.sum_prod_type]
  refine Finset.sum_congr rfl fun k _ => Finset.sum_congr rfl fun i _ => congrArg f (Fin.ext ?_)
  show 128 * k.val + i.val = i.val + 128 * k.val
  omega

/-- A supremum over the 512 inputs is the supremum over the four blocks of the suprema over 128. -/
theorem sup_blocks (f : Fin 512 → EReal) :
    (Finset.univ.sup fun k : Fin 4 => Finset.univ.sup fun i : Fin 128 => f ⟨128 * k.val + i.val, by omega⟩) = Finset.univ.sup f := by
  refine le_antisymm ?_ ?_
  · exact Finset.sup_le fun k _ => Finset.sup_le fun i _ => Finset.le_sup (f := f) (Finset.mem_univ _)
  · refine Finset.sup_le fun n _ => ?_
    have e : f n = (fun i : Fin 128 => f ⟨128 * (⟨n.val / 128, by omega⟩ : Fin 4).val + i.val, by omega⟩) ⟨n.val % 128, by omega⟩ :=
      congrArg f (Fin.ext (by show n.val = 128 * (n.val / 128) + n.val % 128; omega))
    rw [e]
    exact le_trans
      (Finset.le_sup (f := fun i : Fin 128 => f ⟨128 * (⟨n.val / 128, by omega⟩ : Fin 4).val + i.val, by omega⟩) (Finset.mem_univ _))
      (Finset.le_sup (f := fun k : Fin 4 => Finset.univ.sup fun i : Fin 128 => f ⟨128 * k.val + i.val, by omega⟩) (Finset.mem_univ _))

/-- The specification's mixing of one row of inputs, with the 512 inputs taken in four blocks of 128. -/
theorem mix_blocks (X : Cert.Spec.Arr2 256 512) (W : Cert.Spec.Arr2 512 512) (Mf : Fin 512 → Fin 512 → EReal) (b : Fin 256) (o : Fin 512) :
    (∑ k : Fin 4, ∑ i : Fin 128, X (ix2 b ⟨128 * k.val + i.val, by omega⟩) * W (ix2 o ⟨128 * k.val + i.val, by omega⟩))
      + Cert.Spec.delta * ((Finset.univ.sup fun k : Fin 4 => Finset.univ.sup fun i : Fin 128 =>
            Cert.Spec.sq X b ⟨128 * k.val + i.val, by omega⟩ * Mf ⟨128 * k.val + i.val, by omega⟩ o)
          - ∑ k : Fin 4, ∑ i : Fin 128, Cert.Spec.sq X b ⟨128 * k.val + i.val, by omega⟩ * Mf ⟨128 * k.val + i.val, by omega⟩ o)
      = Cert.Spec.mix X W Mf b o := by
  unfold Cert.Spec.mix
  rw [sum_blocks (fun n => X (ix2 b n) * W (ix2 o n)), sup_blocks (fun n => Cert.Spec.sq X b n * Mf n o),
    sum_blocks (fun n => Cert.Spec.sq X b n * Mf n o)]

/-! ## The cover -/

/-- An index of the result array is in point `t`'s block iff each coordinate is in the block's range on its axis. -/
theorem mem_blk (t : Fin cfg1.N) (i : S256x512.Idx) :
    i ∈ ((cfg1.win 3).blk t).view.set ↔ ∀ a : Fin 2, win1_3.index t a * S128x256.size a ≤ (i a).val ∧ (i a).val < win1_3.index t a * S128x256.size a + S128x256.size a := by
  show i ∈ ((View.whole main_v4).slice (win1_3.rect t)).set ↔ _
  rw [View.set_slice_whole, Rect.mem_set_unit]
  exact Iff.rfl

/-- Every index of the result lies in the block of the last point of its tile, and that point writes back. -/
theorem cover (i : S256x512.Idx) : ∃ t : Fin cfg1.N, (cfg1.win 3).flush t = true ∧ i ∈ ((cfg1.win 3).blk t).view.set := by
  have hN : grid1.N = 16 := N_1
  have hi0 : (i 0).val < 256 := (i 0).isLt
  have hi1 : (i 1).val < 512 := (i 1).isLt
  have hlt : 8 * ((i 0).val / 128) + 4 * ((i 1).val / 256) + 3 < grid1.N := by omega
  obtain ⟨t, ht⟩ : ∃ t : Fin cfg1.N, t.val = 8 * ((i 0).val / 128) + 4 * ((i 1).val / 256) + 3 := ⟨⟨_, hlt⟩, rfl⟩
  refine ⟨t, (flush1_3 t).mpr (by omega), ?_⟩
  rw [mem_blk]
  obtain ⟨-, -, -, -, -, -, e0, e1⟩ := idx_facts t
  intro a
  match a with
  | ⟨0, _⟩ =>
    show win1_3.index t (0 : Fin 2) * 128 ≤ (i 0).val ∧ (i 0).val < win1_3.index t (0 : Fin 2) * 128 + 128
    omega
  | ⟨1, _⟩ =>
    show win1_3.index t (1 : Fin 2) * 256 ≤ (i 1).val ∧ (i 1).val < win1_3.index t (1 : Fin 2) * 256 + 256
    omega

end Cert.AccFinal

end
-- ==== Proof.AccChunks.lean ====
/-
  The running maximum of one input block: the eight chunks of sixteen inputs together are the supremum over all 128.

  With c(p,i) = x(p,i)·|x(p,i)| the signed square of the input block and M(i,q) the gate block, the body takes, for each
  chunk of sixteen inputs from `off` = 0, 16, …, 112, the [128,16] columns of c and the [16,256] rows of M, spreads both over
  [128,16,256], multiplies, and takes the maximum over the middle axis from −∞; the running value is the maximum of the
  previous one and the eight chunk maxima in turn.  Here: one chunk's product and maximum read entry by entry (generic in the
  offset), the order fact that the running maximum of eight runs of sixteen from `Q` is max(Q, sup over the 128 inputs), and
  the two assembled into the update of the maximum accumulator.  Only the order of the extended reals is used (max is the
  least upper bound, −∞ the bottom), so everything holds at the infinities.
-/
import proofs.«164464_j21912923144501_2_alg».proof.Proof.KI.AccStep
import proofs.«164464_j21912923144501_2_alg».proof.Proof.Spec
import Idealize.ShloMosaic.Lib.ValueLayout

noncomputable section

namespace Cert.AccValue

open Idealize.ShloMosaic Idealize.ShloMosaic.ValueIdx Cert.KernelIdeal Cert.KernelIdeal.Gen Cert.KernelIdeal.Hand

/-- −∞ as the float word. -/
theorem ofBits_negInf : Ideal.ofBits .f32 0xFF800000#32 = ⊥ := by simp [Ideal.ofBits, Ideal.ieee]

/-- One chunk's product, entry by entry: column `off + j` of `c` times row `off + j` of `M`. -/
theorem chunk_apply (off : Nat) (hoff : off + 16 ≤ 128) (c : FVec Ideal S128x128 .f32) (M : FVec Ideal S128x256 .f32)
    (hc : S128x128.Slices ![0, off] S128x16) (hM : S128x256.Slices ![off, 0] S16x256)
    (h1 : S128x16.ShapeCasts S128x16x1) (h2 : S16x256.ShapeCasts S1x16x256)
    (h3 : S128x16x1.Broadcasts S128x16x256) (h4 : S1x16x256.Broadcasts S128x16x256)
    (p : Fin 128) (j : Fin 16) (q : Fin 256) :
    mulf (broadcastTo S128x16x256 (shapeCast S128x16x1 (extractStridedSlice S128x16 ![0, off] c hc) h1) h3)
         (broadcastTo S128x16x256 (shapeCast S1x16x256 (extractStridedSlice S16x256 ![off, 0] M hM) h2) h4) (ix3 p j q)
      = c (ix2 p ⟨off + j.val, by omega⟩) * M (ix2 ⟨off + j.val, by omega⟩ q) := by
  have e1 : broadcastTo S128x16x256 (shapeCast S128x16x1 (extractStridedSlice S128x16 ![0, off] c hc) h1) h3 (ix3 p j q)
      = c (ix2 p ⟨off + j.val, by omega⟩) := by
    refine (broadcastTo_apply _ h3 (ix3 p j q) (ix3 p j (0 : Fin 1))
      (fun a => match a with | ⟨0, _⟩ => rfl | ⟨1, _⟩ => rfl | ⟨2, _⟩ => rfl)).trans ?_
    refine (shapeCast_apply _ h1 (ix3 p j (0 : Fin 1)) (ix2 p j) (by
      rw [Shape.rowMajor_val_two, Shape.rowMajor_val_three]
      show p.val * 16 + j.val = (p.val * 16 + j.val) * 1 + 0
      omega)).trans ?_
    exact slice2_axis1_apply off c hc p j ⟨off + j.val, by omega⟩ rfl
  have e2 : broadcastTo S128x16x256 (shapeCast S1x16x256 (extractStridedSlice S16x256 ![off, 0] M hM) h2) h4 (ix3 p j q)
      = M (ix2 ⟨off + j.val, by omega⟩ q) := by
    refine (broadcastTo_apply _ h4 (ix3 p j q) (ix3 (0 : Fin 1) j q)
      (fun a => match a with | ⟨0, _⟩ => rfl | ⟨1, _⟩ => rfl | ⟨2, _⟩ => rfl)).trans ?_
    refine (shapeCast_ab_1ab_apply _ h2 (0 : Fin 1) j q).trans ?_
    exact slice2_axis0_apply off M hM j q ⟨off + j.val, by omega⟩ rfl
  show _ * _ = _
  rw [e1, e2]

/-- The maximum over the middle axis from −∞, entry by entry: the supremum of the sixteen entries. -/
theorem reduceMax_apply (v : FVec Ideal S128x16x256 .f32) (h : S128x16x256.Reduces [1] S128x256) (hφ : FKind.Formats .f32)
    (hacc : (0xFF800000#32 : BitVec 32) = FKind.maximumf.neutral .f32 hφ) (p : Fin 128) (q : Fin 256) :
    multiReduction .maximumf [1] S128x256 v 0xFF800000#32 h hφ hacc (ix2 p q) = Finset.univ.sup fun j : Fin 16 => v (ix3 p j q) := by
  refine (Ideal.multiReduction_maximumf_single v _ h hφ hacc (ix2 p q)).trans ?_
  have hl : ∀ j : Fin 16, h.lift (ix2 p q) j = ix3 p j q := fun j => funext fun a => Fin.ext (by
    match a with | ⟨0, _⟩ => rfl | ⟨1, _⟩ => rfl | ⟨2, _⟩ => rfl)
  show Finset.fold max (Ideal.ofBits .f32 0xFF800000#32) (fun j : Fin 16 => v (h.lift (ix2 p q) j)) Finset.univ = _
  rw [ofBits_negInf]
  simp only [hl]
  refine le_antisymm ?_ ?_
  · exact (Finset.fold_max_le _).mpr ⟨bot_le, fun j _ => Finset.le_sup (f := fun j : Fin 16 => v (ix3 p j q)) (Finset.mem_univ j)⟩
  · exact Finset.sup_le fun j _ => (Finset.le_fold_max _).mpr (Or.inr ⟨j, Finset.mem_univ j, le_rfl⟩)

/-! ## A supremum over 128 inputs as the running maximum of eight runs of sixteen -/

/-- The supremum of `f` over the sixteen inputs from `off`. -/
def run16 (f : Fin 128 → EReal) (off : Nat) (hoff : off + 16 ≤ 128) : EReal :=
  Finset.univ.sup fun j : Fin 16 => f ⟨off + j.val, by omega⟩

theorem run16_le (f : Fin 128 → EReal) (off : Nat) (hoff : off + 16 ≤ 128) : run16 f off hoff ≤ Finset.univ.sup f :=
  Finset.sup_le fun _ _ => Finset.le_sup (f := f) (Finset.mem_univ _)

theorem le_run16 (f : Fin 128 → EReal) (i : Fin 128) (off : Nat) (hoff : off + 16 ≤ 128) (h : off ≤ i.val) (h' : i.val < off + 16) :
    f i ≤ run16 f off hoff := by
  have e : f i = (fun j : Fin 16 => f ⟨off + j.val, by omega⟩) ⟨i.val - off, by omega⟩ :=
    congrArg f (Fin.ext (by show i.val = off + (i.val - off); omega))
  rw [e]
  exact Finset.le_sup (f := fun j : Fin 16 => f ⟨off + j.val, by omega⟩) (Finset.mem_univ _)

/-- The running maximum of the eight runs, started from `Q`, is the maximum of `Q` and the supremum over all 128 inputs. -/
theorem max_runs (f : Fin 128 → EReal) (Q : EReal) :
    max (max (max (max (max (max (max (max Q (run16 f 0 (by omega))) (run16 f 16 (by omega))) (run16 f 32 (by omega)))
      (run16 f 48 (by omega))) (run16 f 64 (by omega))) (run16 f 80 (by omega))) (run16 f 96 (by omega))) (run16 f 112 (by omega))
      = max Q (Finset.univ.sup f) := by
  refine le_antisymm ?_ ?_
  · simp only [max_le_iff]
    refine ⟨⟨⟨⟨⟨⟨⟨⟨le_max_left _ _, ?_⟩, ?_⟩, ?_⟩, ?_⟩, ?_⟩, ?_⟩, ?_⟩, ?_⟩ <;> exact le_max_of_le_right (run16_le f _ _)
  · refine max_le ?_ (Finset.sup_le fun i _ => ?_)
    · simp only [le_max_iff, le_refl, true_or]
    · have h8 : i.val < 16 ∨ (16 ≤ i.val ∧ i.val < 32) ∨ (32 ≤ i.val ∧ i.val < 48) ∨ (48 ≤ i.val ∧ i.val < 64)
          ∨ (64 ≤ i.val ∧ i.val < 80) ∨ (80 ≤ i.val ∧ i.val < 96) ∨ (96 ≤ i.val ∧ i.val < 112) ∨ 112 ≤ i.val := by omega
      have hi := i.isLt
      rcases h8 with h | ⟨h, h'⟩ | ⟨h, h'⟩ | ⟨h, h'⟩ | ⟨h, h'⟩ | ⟨h, h'⟩ | ⟨h, h'⟩ | h
      · exact le_trans (le_run16 f i 0 (by omega) (by omega) (by omega)) (by simp only [le_max_iff, le_refl, true_or, or_true])
      · exact le_trans (le_run16 f i 16 (by omega) (by omega) (by omega)) (by simp only [le_max_iff, le_refl, true_or, or_true])
      · exact le_trans (le_run16 f i 32 (by omega) (by omega) (by omega)) (by simp only [le_max_iff, le_refl, true_or, or_true])
      · exact le_trans (le_run16 f i 48 (by omega) (by omega) (by omega)) (by simp only [le_max_iff, le_refl, true_or, or_true])
      · exact le_trans (le_run16 f i 64 (by omega) (by omega) (by omega)) (by simp only [le_max_iff, le_refl, true_or, or_true])
      · exact le_trans (le_run16 f i 80 (by omega) (by omega) (by omega)) (by simp only [le_max_iff, le_refl, true_or, or_true])
      · exact le_trans (le_run16 f i 96 (by omega) (by omega) (by omega)) (by simp only [le_max_iff, le_refl, true_or, or_true])
      · exact le_trans (le_run16 f i 112 (by omega) (by omega) (by omega)) (by simp only [le_max_iff, le_refl, true_or, or_true])

/-- One chunk's maximum, entry by entry: the run of sixteen of `i ↦ c(p,i)·M(i,q)` from `off`. -/
theorem chunkMax_apply (off : Nat) (hoff : off + 16 ≤ 128) (c : FVec Ideal S128x128 .f32) (M : FVec Ideal S128x256 .f32)
    (hc : S128x128.Slices ![0, off] S128x16) (hM : S128x256.Slices ![off, 0] S16x256)
    (h1 : S128x16.ShapeCasts S128x16x1) (h2 : S16x256.ShapeCasts S1x16x256)
    (h3 : S128x16x1.Broadcasts S128x16x256) (h4 : S1x16x256.Broadcasts S128x16x256)
    (h : S128x16x256.Reduces [1] S128x256) (hφ : FKind.Formats .f32)
    (hacc : (0xFF800000#32 : BitVec 32) = FKind.maximumf.neutral .f32 hφ) (p : Fin 128) (q : Fin 256) :
    multiReduction .maximumf [1] S128x256
        (mulf (broadcastTo S128x16x256 (shapeCast S128x16x1 (extractStridedSlice S128x16 ![0, off] c hc) h1) h3)
              (broadcastTo S128x16x256 (shapeCast S1x16x256 (extractStridedSlice S16x256 ![off, 0] M hM) h2) h4))
        0xFF800000#32 h hφ hacc (ix2 p q)
      = run16 (fun i => c (ix2 p i) * M (ix2 i q)) off hoff := by
  refine (reduceMax_apply _ h hφ hacc p q).trans ?_
  exact congrArg (fun g : Fin 16 → EReal => Finset.univ.sup g) (funext fun j => chunk_apply off hoff c M hc hM h1 h2 h3 h4 p j q)

/-- c(p,i) = x(p,i)·|x(p,i)| of a block. -/
def sqB (x : FVec Ideal S128x128 .f32) (p i : Fin 128) : EReal := x (ix2 p i) * Cert.Spec.absE (x (ix2 p i))

/-- The signed square of a block, entry by entry. -/
theorem pay8_apply (x : FVec Ideal S128x128 .f32) (p i : Fin 128) : k1_pay8 (F := Ideal) x (ix2 p i) = sqB x p i := rfl

/-- The gate block passes through its identity reshape. -/
theorem pay6_eq (M : FVec Ideal S128x256 .f32) : k1_pay6 (F := Ideal) M = M := shapeCast_self M _

/-- The running maximum after one block, entry by entry: the eight chunks together are the supremum over the 128 inputs. -/
theorem qstep_apply (x : FVec Ideal S128x128 .f32) (M Q : FVec Ideal S128x256 .f32) (p : Fin 128) (q : Fin 256) :
    k1_pay1 (F := Ideal) (k1_pay6 M) (k1_pay8 x) (k1_pay11 (k1_pay6 M) (k1_pay8 x) Q (k1_pay10 x M)) (k1_pay12 (k1_pay6 M) (k1_pay8 x)) (ix2 p q)
      = max (Q (ix2 p q)) (Finset.univ.sup fun i : Fin 128 => sqB x p i * M (ix2 i q)) := by
  have e6 : k1_pay6 (F := Ideal) M = M := pay6_eq M
  unfold k1_pay1 k1_pay11 k1_pay12 k1_pay10
  rw [e6]
  refine (congrFun (shapeCast_self _ _) (ix2 p q)).trans ?_
  refine Eq.trans ?_ (max_runs (fun i => k1_pay8 (F := Ideal) x (ix2 p i) * M (ix2 i q)) (Q (ix2 p q)))
  show max (max (max (max (max (max (max (max (Q (ix2 p q)) _) _) _) _) _) _) _) _ = _
  exact congrArg₂ max (congrArg₂ max (congrArg₂ max (congrArg₂ max (congrArg₂ max (congrArg₂ max (congrArg₂ max (congrArg₂ max rfl
    (chunkMax_apply 0 (by omega) _ _ _ _ _ _ _ _ _ _ _ p q))
    (chunkMax_apply 16 (by omega) _ _ _ _ _ _ _ _ _ _ _ p q))
    (chunkMax_apply 32 (by omega) _ _ _ _ _ _ _ _ _ _ _ p q))
    (chunkMax_apply 48 (by omega) _ _ _ _ _ _ _ _ _ _ _ p q))
    (chunkMax_apply 64 (by omega) _ _ _ _ _ _ _ _ _ _ _ p q))
    (chunkMax_apply 80 (by omega) _ _ _ _ _ _ _ _ _ _ _ p q))
    (chunkMax_apply 96 (by omega) _ _ _ _ _ _ _ _ _ _ _ p q))
    (chunkMax_apply 112 (by omega) _ _ _ _ _ _ _ _ _ _ _ p q)

end Cert.AccValue

end
-- ==== Proof.AccValue.lean ====
/-
  The second kernel's value: four input blocks accumulated into one tile of the result, entry by entry.

  A tile keeps three accumulators over the four blocks of the contracted axis: the product P = Σ x·wᵀ, the sum S = Σ c·M and
  the maximum Q = max c·M, with c(p,i) = x(p,i)·|x(p,i)|.  One block adds Σ_i x(p,i)·w(q,i) to P (a matrix product with the
  right operand stored transposed, accumulated into zero), adds Σ_i c(p,i)·M(i,q) to S (a plain matrix product into zero), and
  replaces Q by max(Q, sup_i c(p,i)·M(i,q)).  From the reset (0, 0, −∞) four blocks give Σ_k Σ_i, Σ_k Σ_i and sup_k sup_i,
  and the stored tile is P + δ·(Q − S).  Addition of extended reals is a commutative monoid and max is the least upper bound
  with −∞ the bottom: nothing else is used, and nothing is assumed finite.
-/
import proofs.«164464_j21912923144501_2_alg».proof.Proof.AccChunks
import proofs.«164464_j21912923144501_2_alg».proof.Proof.LibDotRead

noncomputable section

namespace Cert.AccValue

open Idealize.ShloMosaic Idealize.ShloMosaic.ValueIdx Cert.KernelIdeal Cert.KernelIdeal.Gen Cert.KernelIdeal.Hand

/-- The product accumulator after one block: x·wᵀ added. -/
theorem pay7_apply (x : FVec Ideal S128x128 .f32) (w : FVec Ideal S256x128 .f32) (P : FVec Ideal S128x256 .f32) (p : Fin 128) (q : Fin 256) :
    k1_pay7 (F := Ideal) x w P (ix2 p q) = P (ix2 p q) + ∑ i : Fin 128, x (ix2 p i) * w (ix2 q i) := by
  unfold k1_pay7
  refine (congrFun (shapeCast_self _ _) (ix2 p q)).trans ?_
  exact congrArg (P (ix2 p q) + ·) (DotRead.matmul_transposedRhs_zero_apply 128 128 256 none
    (truncf .bf16 x bitsLt_bf16_f32) (truncf .bf16 w bitsLt_bf16_f32) p q)

/-- The sum accumulator after one block: c·M added. -/
theorem pay9_apply (x : FVec Ideal S128x128 .f32) (M : FVec Ideal S128x256 .f32) (S : FVec Ideal S128x256 .f32) (p : Fin 128) (q : Fin 256) :
    k1_pay9 (F := Ideal) x M S (ix2 p q) = S (ix2 p q) + ∑ i : Fin 128, sqB x p i * M (ix2 i q) := by
  unfold k1_pay9
  refine (congrFun (shapeCast_self _ _) (ix2 p q)).trans ?_
  refine (congrArg (S (ix2 p q) + ·) (DotRead.matmul_plain_zero_apply 128 128 256 none
    (truncf .bf16 (k1_pay8 (F := Ideal) x) bitsLt_bf16_f32) (truncf .bf16 (k1_pay6 (F := Ideal) M) bitsLt_bf16_f32) p q)).trans ?_
  rw [pay6_eq]
  rfl

/-- The product accumulator's reset value. -/
theorem pay3_apply (p : Fin 128) (q : Fin 256) : k1_pay3 (F := Ideal) (ix2 p q) = 0 := by
  unfold k1_pay3
  refine (congrFun (shapeCast_self _ _) (ix2 p q)).trans ?_
  exact Ideal.ofBits_zero_f32

/-- The sum accumulator's reset value. -/
theorem pay4_apply (p : Fin 128) (q : Fin 256) : k1_pay4 (F := Ideal) (ix2 p q) = 0 := by
  unfold k1_pay4
  refine (congrFun (shapeCast_self _ _) (ix2 p q)).trans ?_
  exact Ideal.ofBits_zero_f32

/-- The maximum accumulator's reset value. -/
theorem pay5_apply (p : Fin 128) (q : Fin 256) : k1_pay5 (F := Ideal) (ix2 p q) = ⊥ := by
  unfold k1_pay5
  refine (congrFun (shapeCast_self _ _) (ix2 p q)).trans ?_
  exact ofBits_negInf

/-- One block's update, entry by entry. -/
theorem accStep_apply (x : FVec Ideal S128x128 .f32) (w : FVec Ideal S256x128 .f32) (M : FVec Ideal S128x256 .f32) (s : Acc Ideal) (p : Fin 128) (q : Fin 256) :
    (accStep x w M s).1 (ix2 p q) = s.1 (ix2 p q) + ∑ i : Fin 128, x (ix2 p i) * w (ix2 q i)
    ∧ (accStep x w M s).2.1 (ix2 p q) = s.2.1 (ix2 p q) + ∑ i : Fin 128, sqB x p i * M (ix2 i q)
    ∧ (accStep x w M s).2.2 (ix2 p q) = max (s.2.2 (ix2 p q)) (Finset.univ.sup fun i : Fin 128 => sqB x p i * M (ix2 i q)) :=
  ⟨pay7_apply x w s.1 p q, pay9_apply x M s.2.1 p q, qstep_apply x M s.2.2 p q⟩

/-- The reset values, entry by entry. -/
theorem accInit_apply (p : Fin 128) (q : Fin 256) :
    (accInit (F := Ideal)).1 (ix2 p q) = 0 ∧ (accInit (F := Ideal)).2.1 (ix2 p q) = 0 ∧ (accInit (F := Ideal)).2.2 (ix2 p q) = ⊥ :=
  ⟨pay3_apply p q, pay4_apply p q, pay5_apply p q⟩

/-- The stored tile, entry by entry. -/
theorem accOut_apply (s : Acc Ideal) (p : Fin 128) (q : Fin 256) :
    accOut s (ix2 p q) = s.1 (ix2 p q) + Cert.Spec.delta * (s.2.2 (ix2 p q) - s.2.1 (ix2 p q)) := rfl

/-- The running maximum of four values from −∞ is their supremum. -/
theorem sup_fin4 (m : Fin 4 → EReal) : max (max (max (max ⊥ (m 0)) (m 1)) (m 2)) (m 3) = Finset.univ.sup m := by
  refine le_antisymm ?_ ?_
  · simp only [max_le_iff]
    exact ⟨⟨⟨⟨bot_le, Finset.le_sup (Finset.mem_univ _)⟩, Finset.le_sup (Finset.mem_univ _)⟩, Finset.le_sup (Finset.mem_univ _)⟩,
      Finset.le_sup (Finset.mem_univ _)⟩
  · refine Finset.sup_le fun k _ => ?_
    match k with
    | ⟨0, _⟩ => exact le_max_of_le_left (le_max_of_le_left (le_max_of_le_left (le_max_right _ _)))
    | ⟨1, _⟩ => exact le_max_of_le_left (le_max_of_le_left (le_max_right _ _))
    | ⟨2, _⟩ => exact le_max_of_le_left (le_max_right _ _)
    | ⟨3, _⟩ => exact le_max_right _ _

/-- Four blocks from the reset: the tile's entry. -/
theorem accOut_four (x : Fin 4 → FVec Ideal S128x128 .f32) (w : Fin 4 → FVec Ideal S256x128 .f32) (M : Fin 4 → FVec Ideal S128x256 .f32) (p : Fin 128) (q : Fin 256) :
    accOut (F := Ideal) (accStep (x 3) (w 3) (M 3) (accStep (x 2) (w 2) (M 2) (accStep (x 1) (w 1) (M 1) (accStep (x 0) (w 0) (M 0) accInit)))) (ix2 p q)
      = (∑ k : Fin 4, ∑ i : Fin 128, x k (ix2 p i) * w k (ix2 q i))
        + Cert.Spec.delta * ((Finset.univ.sup fun k : Fin 4 => Finset.univ.sup fun i : Fin 128 => sqB (x k) p i * M k (ix2 i q))
                             - ∑ k : Fin 4, ∑ i : Fin 128, sqB (x k) p i * M k (ix2 i q)) := by
  obtain ⟨a0, b0, c0⟩ := accInit_apply p q
  obtain ⟨a1, b1, c1⟩ := accStep_apply (x 0) (w 0) (M 0) accInit p q
  obtain ⟨a2, b2, c2⟩ := accStep_apply (x 1) (w 1) (M 1) (accStep (x 0) (w 0) (M 0) accInit) p q
  obtain ⟨a3, b3, c3⟩ := accStep_apply (x 2) (w 2) (M 2) (accStep (x 1) (w 1) (M 1) (accStep (x 0) (w 0) (M 0) accInit)) p q
  obtain ⟨a4, b4, c4⟩ := accStep_apply (x 3) (w 3) (M 3) (accStep (x 2) (w 2) (M 2) (accStep (x 1) (w 1) (M 1) (accStep (x 0) (w 0) (M 0) accInit))) p q
  rw [accOut_apply, a4, a3, a2, a1, a0, b4, b3, b2, b1, b0, c4, c3, c2, c1, c0, zero_add, zero_add,
    sup_fin4 (fun k : Fin 4 => Finset.univ.sup fun i : Fin 128 => sqB (x k) p i * M k (ix2 i q)),
    Fin.sum_univ_four, Fin.sum_univ_four]

end Cert.AccValue

end
-- ==== Proof.AccFinal.lean ====
/-
  The second region's result array after the region: the specification's result of the arrays the region found.

  The result window is written back exactly at the last point of each tile (t ≡ 3 mod 4).  There the three accumulators are
  the tile's four input blocks accumulated from the reset, so the stored block is, entry by entry, Σ_k Σ_i x·w + δ·(sup_k sup_i
  c·M − Σ_k Σ_i c·M) over the four blocks k of 128 inputs.  The four points of a tile share its b-tile and o-tile and run
  through the input blocks 0, 1, 2, 3, so their blocks read the arrays at rows of the b-tile (the o-tile) and columns
  128·k + i; regrouping the four runs of 128 into the 512 inputs gives the specification's mixing at the entry's place in the
  result array, and the last points' blocks cover the array.
-/
import proofs.«164464_j21912923144501_2_alg».proof.Proof.KI.AccRegion
import proofs.«164464_j21912923144501_2_alg».proof.Proof.KI.AccTiles
import proofs.«164464_j21912923144501_2_alg».proof.Proof.AccBlocks
import proofs.«164464_j21912923144501_2_alg».proof.Proof.AccValue
import Idealize.ShloMosaic.Lib.Pipeline.Value

set_option maxRecDepth 16384

noncomputable section

namespace Cert.AccFinal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The specification's result of the arrays the region found, as one function of the result array's index. -/
def tileArr (c : Dev nD) : S256x512.Idx → EReal :=
  fun j => Cert.Spec.mix (V c main_arg0) (V c main_arg1) (fun i o => V c main_v3 (ix2 i o)) (j 0) (j 1)

/-! ## The accumulators at a tile's last point: four blocks from the reset -/

/-- At a tile's first point the accumulators are one block from the reset. -/
theorem accAt_first (c : Dev nD) (n : ℕ) (hn : n < cfg1.N) (h : n % 4 = 0) :
    accAt V c n hn = accStep (iblk1 V c 0 ⟨n, hn⟩) (iblk1 V c 1 ⟨n, hn⟩) (iblk1 V c 2 ⟨n, hn⟩) accInit := by
  cases n with
  | zero => rfl
  | succ n =>
    show accStep _ _ _ (if (n + 1) % 4 = 0 then accInit else _) = _
    rw [if_pos h]

/-- Away from a tile's first point they are one block from the point before. -/
theorem accAt_next (c : Dev nD) (n : ℕ) (hn : n + 1 < cfg1.N) (h : ¬(n + 1) % 4 = 0) :
    accAt V c (n + 1) hn = accStep (iblk1 V c 0 ⟨n + 1, hn⟩) (iblk1 V c 1 ⟨n + 1, hn⟩) (iblk1 V c 2 ⟨n + 1, hn⟩) (accAt V c n (Nat.lt_of_succ_lt hn)) := by
  show accStep _ _ _ (if (n + 1) % 4 = 0 then accInit else _) = _
  rw [if_neg h]

/-- At a tile's last point: the four blocks of the tile, from the reset. -/
theorem accAt_tile (c : Dev nD) (t t2 t1 t0 : Fin cfg1.N) (h3 : t.val % 4 = 3)
    (e2 : t2.val + 1 = t.val) (e1 : t1.val + 2 = t.val) (e0 : t0.val + 3 = t.val) :
    accAt V c t.val t.isLt
      = accStep (iblk1 V c 0 t) (iblk1 V c 1 t) (iblk1 V c 2 t) (accStep (iblk1 V c 0 t2) (iblk1 V c 1 t2) (iblk1 V c 2 t2) (accStep (iblk1 V c 0 t1) (iblk1 V c 1 t1) (iblk1 V c 2 t1) (accStep (iblk1 V c 0 t0) (iblk1 V c 1 t0) (iblk1 V c 2 t0) accInit))) := by
  obtain ⟨n, hn⟩ := t
  obtain ⟨n2, hn2⟩ := t2
  obtain ⟨n1, hn1⟩ := t1
  obtain ⟨n0, hn0⟩ := t0
  dsimp only at h3 e2 e1 e0 ⊢
  subst e0
  obtain rfl : n1 = n0 + 1 := by omega
  obtain rfl : n2 = n0 + 2 := by omega
  rw [accAt_next V c (n0 + 2) hn (by omega), accAt_next V c (n0 + 1) _ (by omega), accAt_next V c n0 _ (by omega),
    accAt_first V c n0 _ (by omega)]

/-! ## What a tile's last point writes back -/

/-- The block written back at a tile's last point is that block of the specification's result. -/
theorem flushed_eq (c : Dev nD) (t : Fin cfg1.N) (hf : (cfg1.win 3).flush t = true) :
    (dat1 (F := Ideal) V c).flushed 3 t = ((cfg1.win 3).blk t).view.read (Elt Ideal) (tileArr V c) := by
  have h3 : t.val % 4 = 3 := (flush1_3 t).mp hf
  have hN : grid1.N = 16 := N_1
  have htlt : t.val < grid1.N := t.isLt
  show (cfg1.win 3).cut (grid1.coords t) ((dat1 V c).after 3 t) = _
  rw [after1_3, outsAt1_tile V c t h3]
  obtain ⟨tk, htk⟩ : ∃ tk : Fin 4 → Fin cfg1.N, ∀ k : Fin 4, (tk k).val = t.val - 3 + k.val :=
    ⟨fun k => ⟨t.val - 3 + k.val, by have := k.isLt; omega⟩, fun _ => rfl⟩
  have k0 : (tk 0).val = t.val - 3 + 0 := htk 0
  have k1 : (tk 1).val = t.val - 3 + 1 := htk 1
  have k2 : (tk 2).val = t.val - 3 + 2 := htk 2
  have k3 : (tk 3).val = t.val - 3 + 3 := htk 3
  have E3 : t = tk 3 := Fin.ext (by omega)
  rw [accAt_tile V c t (tk 2) (tk 1) (tk 0) h3 (by omega) (by omega) (by omega)]
  funext j
  obtain ⟨p, q, rfl⟩ : ∃ (p : Fin 128) (q : Fin 256), j = ix2 p q := ⟨j 0, j 1, eq_ix2 j⟩
  have hp := p.isLt
  have hq := q.isLt
  obtain ⟨b, hb⟩ : ∃ b : Fin 256, b.val = 128 * (t.val / 8) + p.val := ⟨⟨128 * (t.val / 8) + p.val, by omega⟩, rfl⟩
  obtain ⟨o, ho⟩ : ∃ o : Fin 512, o.val = 256 * (t.val / 4 % 2) + q.val := ⟨⟨256 * (t.val / 4 % 2) + q.val, by omega⟩, rfl⟩
  show accOut (F := Ideal) _ (ix2 p q) = tileArr V c (((cfg1.win 3).blk t).view.emb (ix2 p q))
  rw [oblk_emb t p q b o hb ho]
  show _ = Cert.Spec.mix (V c main_arg0) (V c main_arg1) (fun i o => V c main_v3 (ix2 i o)) b o
  rw [← mix_blocks]
  have hx : ∀ (k : Fin 4) (i : Fin 128), iblk1 V c 0 (tk k) (ix2 p i)
      = (V c main_arg0 : S256x512.Idx → EReal) (ix2 b ⟨128 * k.val + i.val, by omega⟩) := fun k i =>
    iblk_0_apply V c (tk k) p i b _ (by have := htk k; have := k.isLt; omega)
      (by have := htk k; have := k.isLt; show 128 * k.val + i.val = 128 * ((tk k).val % 4) + i.val; omega)
  have hw : ∀ (k : Fin 4) (i : Fin 128), iblk1 V c 1 (tk k) (ix2 q i)
      = (V c main_arg1 : S512x512.Idx → EReal) (ix2 o ⟨128 * k.val + i.val, by omega⟩) := fun k i =>
    iblk_1_apply V c (tk k) q i o _ (by have := htk k; have := k.isLt; omega)
      (by have := htk k; have := k.isLt; show 128 * k.val + i.val = 128 * ((tk k).val % 4) + i.val; omega)
  have hM : ∀ (k : Fin 4) (i : Fin 128), iblk1 V c 2 (tk k) (ix2 i q)
      = (V c main_v3 : S512x512.Idx → EReal) (ix2 ⟨128 * k.val + i.val, by omega⟩ o) := fun k i =>
    iblk_2_apply V c (tk k) i q _ o
      (by have := htk k; have := k.isLt; show 128 * k.val + i.val = 128 * ((tk k).val % 4) + i.val; omega)
      (by have := htk k; have := k.isLt; omega)
  rw [E3]
  refine (Cert.AccValue.accOut_four (fun k => iblk1 V c 0 (tk k)) (fun k => iblk1 V c 1 (tk k)) (fun k => iblk1 V c 2 (tk k)) p q).trans ?_
  simp only [Cert.AccValue.sqB, Cert.Spec.sq, hx, hw, hM]

/-- The second region's result array after the region: the specification's result of the arrays the region found. -/
theorem acc_final (c : Dev nD) :
    (Cert.KernelIdeal.Hand.dat1 (F := Ideal) V c).arrAt 3 cfg1.N
      = fun j => Cert.Spec.mix (V c main_arg0) (V c main_arg1) (fun i o => V c main_v3 (ix2 i o)) (j 0) (j 1) :=
  (dat1 (F := Ideal) V c).arrAt_eq_of_cover 3 (tileArr V c) (fun t hf => flushed_eq V c t hf) cover

end Cert.AccFinal

end
-- ==== Proof.KernelValue.lean ====
/-
  The kernel's result array is the specification `Cert.Spec.G` of the launch contents of the arguments.

  The two regions' values are joined through the contents of the buffers at the region boundaries.  No host line and no
  region writes an argument, so at every boundary an argument holds its launch contents.  The three host reshapes lay a
  vector [512] out as a row [1,512]: entry (0,o) of the row is entry o of the vector.  The first region leaves its gate
  table in the array the second region reads as its table; the second region's result is the mix of the arguments with
  that table.
-/
import proofs.«164464_j21912923144501_2_alg».proof.Proof.KI.Run
import proofs.«164464_j21912923144501_2_alg».proof.Proof.Spec
import proofs.«164464_j21912923144501_2_alg».proof.Proof.GateFinal
import proofs.«164464_j21912923144501_2_alg».proof.Proof.AccFinal
import Idealize.ShloMosaic.Lib.ValueLayout

set_option maxRecDepth 16384

noncomputable section

namespace Cert.KernelValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg)

/-! ## No host line writes an argument -/

/-- A buffer that is none of the three reshapes' results holds its launch contents at the first region's entry. -/
theorem V1_of_ne (c : Dev nD) (b : Ref sig .tc) (h0 : b ≠ main_v0) (h1 : b ≠ main_v1) (h2 : b ≠ main_v2) :
    V1 m ρ c b = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))).trans rfl

theorem V1_main_arg0 (c : Dev nD) : V1 m ρ c main_arg0 = m ((c : Thread nD τ).loc main_arg0) :=
  V1_of_ne m ρ c main_arg0 (by decide) (by decide) (by decide)
theorem V1_main_arg1 (c : Dev nD) : V1 m ρ c main_arg1 = m ((c : Thread nD τ).loc main_arg1) :=
  V1_of_ne m ρ c main_arg1 (by decide) (by decide) (by decide)
theorem V1_main_arg2 (c : Dev nD) : V1 m ρ c main_arg2 = m ((c : Thread nD τ).loc main_arg2) :=
  V1_of_ne m ρ c main_arg2 (by decide) (by decide) (by decide)
theorem V1_main_arg3 (c : Dev nD) : V1 m ρ c main_arg3 = m ((c : Thread nD τ).loc main_arg3) :=
  V1_of_ne m ρ c main_arg3 (by decide) (by decide) (by decide)

/-! ## The first region writes neither x nor the weights -/

/-- x is no window of the first region. -/
theorem V2_main_arg0 (c : Dev nD) : V2 m ρ c main_arg0 = m ((c : Thread nD τ).loc main_arg0) :=
  (W2_of_ne m ρ c main_arg0 (by decide)).trans (V1_main_arg0 m ρ c)

/-- The weights are an input window of the first region: what the pipeline leaves there is what it found. -/
theorem V2_main_arg1 (c : Dev nD) : V2 m ρ c main_arg1 = m ((c : Thread nD τ).loc main_arg1) :=
  ((W2_arr m ρ c 5).trans (((dat0 (V1 m ρ) c).arrAt_in 5 rfl _).trans (A_eq0 (V1 m ρ) c 5))).trans (V1_main_arg1 m ρ c)

/-- The table the second region reads is what the first region's write-backs leave. -/
theorem V2_main_v3 (c : Dev nD) : V2 m ρ c main_v3 = (dat0 (V1 m ρ) c).arrAt 6 cfg0.N := W2_arr m ρ c 6

/-! ## The reshaped vectors: entry (0,o) of the row is entry o of the vector -/

theorem V1_main_v0_at (c : Dev nD) (o : Fin 512) :
    V1 m ρ c main_v0 (ix2 (0 : Fin 1) o) = m ((c : Thread nD τ).loc main_arg4) (ix1 o) := by
  have e : (V1 m ρ c main_v0 : S1x512.Idx → EReal)
      = shapeCast S1x512 (m ((c : Thread nD τ).loc main_arg4) : S512.Idx → EReal) shapeCasts_S512_S1x512 := by
    dsimp only [V1, W1, hostOps0]; after_results; rfl
  exact (congrFun e (ix2 (0 : Fin 1) o)).trans (shapeCast_a_1a_apply _ _ 0 o)

theorem V1_main_v1_at (c : Dev nD) (o : Fin 512) :
    V1 m ρ c main_v1 (ix2 (0 : Fin 1) o) = m ((c : Thread nD τ).loc main_arg5) (ix1 o) := by
  have e : (V1 m ρ c main_v1 : S1x512.Idx → EReal)
      = shapeCast S1x512 (m ((c : Thread nD τ).loc main_arg5) : S512.Idx → EReal) shapeCasts_S512_S1x512 := by
    dsimp only [V1, W1, hostOps0]; after_results; rfl
  exact (congrFun e (ix2 (0 : Fin 1) o)).trans (shapeCast_a_1a_apply _ _ 0 o)

theorem V1_main_v2_at (c : Dev nD) (o : Fin 512) :
    V1 m ρ c main_v2 (ix2 (0 : Fin 1) o) = m ((c : Thread nD τ).loc main_arg6) (ix1 o) := by
  have e : (V1 m ρ c main_v2 : S1x512.Idx → EReal)
      = shapeCast S1x512 (m ((c : Thread nD τ).loc main_arg6) : S512.Idx → EReal) shapeCasts_S512_S1x512 := by
    dsimp only [V1, W1, hostOps0]; after_results; rfl
  exact (congrFun e (ix2 (0 : Fin 1) o)).trans (shapeCast_a_1a_apply _ _ 0 o)

/-! ## The join -/

/-- The gate table of equal arrays is the same table. -/
theorem table_congr {w w' : Cert.Spec.Arr2 512 512} {pe pe' aw aw' : Cert.Spec.Arr2 512 256} {ab ab' lg lg' lb lb' : Fin 512 → EReal}
    (hw : w = w') (hpe : pe = pe') (haw : aw = aw') (hab : ab = ab') (hlg : lg = lg') (hlb : lb = lb') :
    Cert.Spec.table w pe aw ab lg lb = Cert.Spec.table w' pe' aw' ab' lg' lb' := by
  rw [hw, hpe, haw, hab, hlg, hlb]

/-- The mix of equal arrays with equal tables is the same array. -/
theorem mix_congr {x x' : Cert.Spec.Arr2 256 512} {w w' : Cert.Spec.Arr2 512 512} {M M' : Fin 512 → Fin 512 → EReal}
    (hx : x = x') (hw : w = w') (hM : M = M') : Cert.Spec.mix x w M = Cert.Spec.mix x' w' M' := by
  rw [hx, hw, hM]

/-- The table the second region reads is the specification's gate table of the launch contents. -/
theorem table_boundary (c : Dev nD) (i o : Fin 512) :
    V2 m ρ c main_v3 (ix2 i o)
      = Cert.Spec.table (m ((c : Thread nD τ).loc main_arg1)) (m ((c : Thread nD τ).loc main_arg2)) (m ((c : Thread nD τ).loc main_arg3))
          (fun o => m ((c : Thread nD τ).loc main_arg4) (ix1 o)) (fun o => m ((c : Thread nD τ).loc main_arg5) (ix1 o))
          (fun o => m ((c : Thread nD τ).loc main_arg6) (ix1 o)) i o :=
  (congrFun ((V2_main_v3 m ρ c).trans (Cert.GateFinal.gate_final (V1 m ρ) c)) (ix2 i o)).trans
    (congrFun (congrFun (table_congr (V1_main_arg1 m ρ c) (V1_main_arg2 m ρ c) (V1_main_arg3 m ρ c)
      (funext (V1_main_v0_at m ρ c)) (funext (V1_main_v1_at m ρ c)) (funext (V1_main_v2_at m ρ c))) i) o)

/-- The mix of the second region's entry contents is the specification of the launch contents. -/
theorem mix_boundary (c : Dev nD) :
    (fun j : S256x512.Idx => Cert.Spec.mix (V2 m ρ c main_arg0) (V2 m ρ c main_arg1) (fun i o => V2 m ρ c main_v3 (ix2 i o)) (j 0) (j 1))
      = Cert.Spec.G (m ((c : Thread nD τ).loc main_arg0)) (m ((c : Thread nD τ).loc main_arg1)) (m ((c : Thread nD τ).loc main_arg2)) (m ((c : Thread nD τ).loc main_arg3))
          (fun o => m ((c : Thread nD τ).loc main_arg4) (ix1 o)) (fun o => m ((c : Thread nD τ).loc main_arg5) (ix1 o))
          (fun o => m ((c : Thread nD τ).loc main_arg6) (ix1 o)) :=
  funext fun j => congrFun (congrFun (mix_congr (V2_main_arg0 m ρ c) (V2_main_arg1 m ρ c)
    (funext fun i => funext fun o => table_boundary m ρ c i o)) (j 0)) (j 1)

/-- The second region's result array, given what the second region leaves from ANY entry contents: the mix of its
    arguments with the table it reads. -/
theorem kernel_value_of_acc
    (hacc : ∀ (V : (c : Dev nD) → (b : Ref sig .tc) → Buf (Elt Ideal) ((c : Thread nD τ).loc b)) (c : Dev nD),
      (dat1 (F := Ideal) V c).arrAt 3 cfg1.N
        = fun j => Cert.Spec.mix (V c main_arg0) (V c main_arg1) (fun i o => V c main_v3 (ix2 i o)) (j 0) (j 1))
    (c : Dev nD) :
    (dat1 (F := Ideal) (V2 m ρ) c).arrAt 3 cfg1.N
      = Cert.Spec.G (m ((c : Thread nD τ).loc main_arg0)) (m ((c : Thread nD τ).loc main_arg1)) (m ((c : Thread nD τ).loc main_arg2)) (m ((c : Thread nD τ).loc main_arg3))
          (fun o => m ((c : Thread nD τ).loc main_arg4) (ix1 o)) (fun o => m ((c : Thread nD τ).loc main_arg5) (ix1 o))
          (fun o => m ((c : Thread nD τ).loc main_arg6) (ix1 o)) :=
  (hacc (V2 m ρ) c).trans (mix_boundary m ρ c)

/-- THE KERNEL'S RESULT IS THE SPECIFICATION of the launch contents of the arguments. -/
theorem kernel_value (c : Dev nD) :
    (dat1 (F := Ideal) (V2 m ρ) c).arrAt 3 cfg1.N
      = Cert.Spec.G (m ((c : Thread nD τ).loc main_arg0)) (m ((c : Thread nD τ).loc main_arg1)) (m ((c : Thread nD τ).loc main_arg2)) (m ((c : Thread nD τ).loc main_arg3))
          (fun o => m ((c : Thread nD τ).loc main_arg4) (ix1 o)) (fun o => m ((c : Thread nD τ).loc main_arg5) (ix1 o))
          (fun o => m ((c : Thread nD τ).loc main_arg6) (ix1 o)) :=
  kernel_value_of_acc m ρ (fun V c => Cert.AccFinal.acc_final V c) c

end Cert.KernelValue

end
-- ==== Proof.lean ====
/-
  The certificate of the gated mixing layer: a Pallas kernel pair against its jnp reference, equal on the extended reals.

  Both programs compute, for a batch row b and an output o,
      G(b,o) = Σ_i x(b,i)·w(o,i) + δ·( max_i c(b,i)·M(i,o) − Σ_i c(b,i)·M(i,o) ),   c = x·|x|,   M(i,o) = |w(o,i)|·g(i,o),
  g the logistic of the layer-normalised attention scores (`Cert.Spec.G`).  The kernel program first builds the table M in one
  whole-array kernel, then accumulates each 128×256 tile of the result over four 128-wide blocks of the contracted axis, keeping the
  running product, sum and maximum in three scratch buffers; the reference forms the three-dimensional product array and reduces it.
  The two differ only in the grouping of the sums and maxima and in the order of the factors of one product, so no finiteness of
  the inputs is used.

  The frames: each kernel program's run is the run of its segments — three host reshapes and the two kernel regions — with the
  buffers' contents at the boundaries a fold from the launch memory (Proof/KI/Run.lean at the idealized program, Proof/K/Run.lean the
  same text at the word-level one); the reference's is its run with the result dropped.  The value: the kernel program's result array
  is the specification of its launch arguments (Proof/KernelValue.lean, over the gate table's value and the accumulated tiles'), and
  so is the reference's (Proof/RefIsG.lean).
-/
import proofs.«164464_j21912923144501_2_alg».proof.Defs
import proofs.«164464_j21912923144501_2_alg».proof.Proof.Gen.Kernel
import proofs.«164464_j21912923144501_2_alg».proof.Proof.Gen.KernelIdeal
import proofs.«164464_j21912923144501_2_alg».proof.Proof.Gen.ReferenceIdeal
import proofs.«164464_j21912923144501_2_alg».proof.Proof.Gen.Pre_finite_inputs
import proofs.«164464_j21912923144501_2_alg».proof.Proof.Gen.ReferenceIdeal.Run
import proofs.«164464_j21912923144501_2_alg».proof.Proof.Gen.ReferenceIdeal.Read
import proofs.«164464_j21912923144501_2_alg».proof.Proof.K.Run
import proofs.«164464_j21912923144501_2_alg».proof.Proof.KI.Run
import proofs.«164464_j21912923144501_2_alg».proof.Proof.RefIsG
import proofs.«164464_j21912923144501_2_alg».proof.Proof.KernelValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to the end, faults nowhere and leaves its arguments as launched. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the arguments both idealized programs end with the specification of those arguments in their result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (fun o => (m ((c.tc : Thread Cert.KernelIdeal.nD Cert.KernelIdeal.τ).loc Cert.KernelIdeal.main_arg4)) (ix1 o)) (fun o => (m ((c.tc : Thread Cert.KernelIdeal.nD Cert.KernelIdeal.τ).loc Cert.KernelIdeal.main_arg5)) (ix1 o)) (fun o => (m ((c.tc : Thread Cert.KernelIdeal.nD Cert.KernelIdeal.τ).loc Cert.KernelIdeal.main_arg6)) (ix1 o)), ?_, ?_⟩
  · exact (θ_run Cert.KernelIdeal.defs _ _).mono
      (fun r h c => ⟨(h c).1.trans (Cert.KernelValue.kernel_value m ρ c), (h c).2⟩) (Cert.KernelIdeal.Hand.run_result m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v54_eq, Cert.RefValue.ref_is_G,
      (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
